-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1200000 : Shape := ⟨2, ![2, 1200000]⟩
abbrev S50000x4096 : Shape := ⟨2, ![50000, 4096]⟩
abbrev S100000x64 : Shape := ⟨2, ![100000, 64]⟩
abbrev S4096x256 : Shape := ⟨2, ![4096, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x4096 : S_.BroadcastsInDim S50000x4096 (![] : Fin 0 → Fin S50000x4096.rank)
  reducesTo_S50000x4096_S_d0_1 : S50000x4096.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x1200000 32) (main_arg1 : FVec F S50000x4096 .f32) (main_arg2 : FVec F S100000x64 .f32) (main_arg3 : FVec F S4096x256 .f32) (main_arg4 : FVec F S256 .f32) (main_arg5 : FVec F S256x64 .f32) (main_arg6 : FVec F S64 .f32) : IVec S_ 1 :=
  let main_v0 : FVec F S50000x4096 .f32 := Host.absf main_arg1
  let main_cst : FVec F S_ .f32 := constant S_ .f32 0x7F800000#32
  let main_v1 : FVec F S50000x4096 .f32 := broadcastInDim S50000x4096 ![] bcast_S_S50000x4096 main_cst
  let main_v2 : IVec S50000x4096 1 := cmpf .olt main_v0 main_v1
  let main_c : IVec S_ 1 := constantI S_ 1 1#1
  let main_v3 : IVec S_ 1 := (fun x v => Host.reduce IntOp.andi x v reducesTo_S50000x4096_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S2x1200000 : Shape := ⟨2, ![2, 1200000]⟩
abbrev S50000x4096 : Shape := ⟨2, ![50000, 4096]⟩
abbrev S100000x64 : Shape := ⟨2, ![100000, 64]⟩
abbrev S4096x256 : Shape := ⟨2, ![4096, 256]⟩
abbrev S256 : Shape := ⟨1, ![256]⟩
abbrev S256x64 : Shape := ⟨2, ![256, 64]⟩
abbrev S64 : Shape := ⟨1, ![64]⟩
abbrev S1x1200000 : Shape := ⟨2, ![1, 1200000]⟩
abbrev S1200000 : Shape := ⟨1, ![1200000]⟩
abbrev S1x256 : Shape := ⟨2, ![1, 256]⟩
abbrev S1x64 : Shape := ⟨2, ![1, 64]⟩
abbrev S50000x64 : Shape := ⟨2, ![50000, 64]⟩
abbrev S400x4096 : Shape := ⟨2, ![400, 4096]⟩
abbrev S400x64 : Shape := ⟨2, ![400, 64]⟩
abbrev S400x256 : Shape := ⟨2, ![400, 256]⟩
abbrev S150000x64 : Shape := ⟨2, ![150000, 64]⟩
abbrev S1000x64 : Shape := ⟨2, ![1000, 64]⟩
abbrev S1000 : Shape := ⟨1, ![1000]⟩
abbrev S1000x1 : Shape := ⟨2, ![1000, 1]⟩
abbrev S_ : Shape := ⟨0, ![]⟩
abbrev S150000 : Shape := ⟨1, ![150000]⟩
abbrev S1200000x1 : Shape := ⟨2, ![1200000, 1]⟩
abbrev S1200000x64 : Shape := ⟨2, ![1200000, 64]⟩

abbrev nBuf : Space → Nat
  | .hbm => 120
  | .vmem => 12
  | .smem => 0
  | _ => 0

abbrev bufTy : (tb : Table) → Fin (tcTables nBuf tb) → BufTy
  | .hbm, ⟨0, _⟩ => ⟨S2x1200000, .i32⟩
  | .hbm, ⟨1, _⟩ => ⟨S50000x4096, .f32⟩
  | .hbm, ⟨2, _⟩ => ⟨S100000x64, .f32⟩
  | .hbm, ⟨3, _⟩ => ⟨S4096x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S1x256, .f32⟩
  | .hbm, ⟨12, _⟩ => ⟨S1x64, .f32⟩
  | .hbm, ⟨13, _⟩ => ⟨S50000x64, .f32⟩
  | .hbm, ⟨14, _⟩ => ⟨S150000x64, .f32⟩
  | .hbm, ⟨15, _⟩ => ⟨S150000x64, .f32⟩
  | .hbm, ⟨16, _⟩ => ⟨S_, .f32⟩
  | .hbm, ⟨17, _⟩ => ⟨S150000, .f32⟩
  | .hbm, ⟨18, _⟩ => ⟨S_, .f32⟩
  | .hbm, ⟨19, _⟩ => ⟨S1200000, .f32⟩
  | .hbm, ⟨20, _⟩ => ⟨S_, .i32⟩
  | .hbm, ⟨21, _⟩ => ⟨S1200000, .i32⟩
  | .hbm, ⟨22, _⟩ => ⟨S1200000, .i1⟩
  | .hbm, ⟨23, _⟩ => ⟨S_, .i32⟩
  | .hbm, ⟨24, _⟩ => ⟨S1200000, .i32⟩
  | .hbm, ⟨25, _⟩ => ⟨S1200000, .i32⟩
  | .hbm, ⟨26, _⟩ => ⟨S1200000, .i32⟩
  | .hbm, ⟨27, _⟩ => ⟨S1200000x1, .i32⟩
  | .hbm, ⟨28, _⟩ => ⟨S150000, .f32⟩
  | .hbm, ⟨29, _⟩ => ⟨S_, .f32⟩
  | .hbm, ⟨30, _⟩ => ⟨S150000, .f32⟩
  | .hbm, ⟨31, _⟩ => ⟨S150000, .f32⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000, .f32⟩
  | .hbm, ⟨50, _⟩ => ⟨S1200000, .f32⟩
  | .hbm, ⟨51, _⟩ => ⟨S1200000x1, .f32⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x64, .f32⟩
  | .hbm, ⟨61, _⟩ => ⟨S1200000x64, .f32⟩
  | .hbm, ⟨62, _⟩ => ⟨S1200000x64, .f32⟩
  | .hbm, ⟨63, _⟩ => ⟨S_, .f32⟩
  | .hbm, ⟨64, _⟩ => ⟨S150000x64, .f32⟩
  | .hbm, ⟨65, _⟩ => ⟨S1200000x1, .i32⟩
  | .hbm, ⟨66, _⟩ => ⟨S150000x64, .f32⟩
  | .hbm, ⟨67, _⟩ => ⟨S_, .f32⟩
  | .hbm, ⟨68, _⟩ => ⟨S150000, .f32⟩
  | .hbm, ⟨69, _⟩ => ⟨S_, .f32⟩
  | .hbm, ⟨70, _⟩ => ⟨S1200000, .f32⟩
  | .hbm, ⟨71, _⟩ => ⟨S_, .i32⟩
  | .hbm, ⟨72, _⟩ => ⟨S1200000, .i32⟩
  | .hbm, ⟨73, _⟩ => ⟨S1200000, .i1⟩
  | .hbm, ⟨74, _⟩ => ⟨S_, .i32⟩
  | .hbm, ⟨75, _⟩ => ⟨S1200000, .i32⟩
  | .hbm, ⟨76, _⟩ => ⟨S1200000, .i32⟩
  | .hbm, ⟨77, _⟩ => ⟨S1200000, .i32⟩
  | .hbm, ⟨78, _⟩ => ⟨S1200000x1, .i32⟩
  | .hbm, ⟨79, _⟩ => ⟨S150000, .f32⟩
  | .hbm, ⟨80, _⟩ => ⟨S_, .f32⟩
  | .hbm, ⟨81, _⟩ => ⟨S150000, .f32⟩
  | .hbm, ⟨82, _⟩ => ⟨S150000, .f32⟩
  | .hbm, ⟨83, _⟩ => ⟨S_, .i32⟩
  | .hbm, ⟨84, _⟩ => ⟨S1200000, .i32⟩
  | .hbm, ⟨85, _⟩ => ⟨S1200000, .i1⟩
  | .hbm, ⟨86, _⟩ => ⟨S_, .i32⟩
  | .hbm, ⟨87, _⟩ => ⟨S1200000, .i32⟩
  | .hbm, ⟨88, _⟩ => ⟨S1200000, .i32⟩
  | .hbm, ⟨89, _⟩ => ⟨S1200000, .i32⟩
  | .hbm, ⟨90, _⟩ => ⟨S1200000x1, .i32⟩
  | .hbm, ⟨91, _⟩ => ⟨S1200000, .f32⟩
  | .hbm, ⟨92, _⟩ => ⟨S_, .i32⟩
  | .hbm, ⟨93, _⟩ => ⟨S1200000, .i32⟩
  | .hbm, ⟨94, _⟩ => ⟨S1200000, .i1⟩
  | .hbm, ⟨95, _⟩ => ⟨S_, .i32⟩
  | .hbm, ⟨96, _⟩ => ⟨S1200000, .i32⟩
  | .hbm, ⟨97, _⟩ => ⟨S1200000, .i32⟩
  | .hbm, ⟨98, _⟩ => ⟨S1200000, .i32⟩
  | .hbm, ⟨99, _⟩ => ⟨S1200000x1, .i32⟩
  | .hbm, ⟨100, _⟩ => ⟨S1200000, .f32⟩
  | .hbm, ⟨101, _⟩ => ⟨S1200000, .f32⟩
  | .hbm, ⟨102, _⟩ => ⟨S1200000x1, .f32⟩
  | .hbm, ⟨103, _⟩ => ⟨S_, .i32⟩
  | .hbm, ⟨104, _⟩ => ⟨S1200000, .i32⟩
  | .hbm, ⟨105, _⟩ => ⟨S1200000, .i1⟩
  | .hbm, ⟨106, _⟩ => ⟨S_, .i32⟩
  | .hbm, ⟨107, _⟩ => ⟨S1200000, .i32⟩
  | .hbm, ⟨108, _⟩ => ⟨S1200000, .i32⟩
  | .hbm, ⟨109, _⟩ => ⟨S1200000, .i32⟩
  | .hbm, ⟨110, _⟩ => ⟨S1200000x1, .i32⟩
  | .hbm, ⟨111, _⟩ => ⟨S1200000x64, .f32⟩
  | .hbm, ⟨112, _⟩ => ⟨S1200000x64, .f32⟩
  | .hbm, ⟨113, _⟩ => ⟨S1200000x64, .f32⟩
  | .hbm, ⟨114, _⟩ => ⟨S_, .f32⟩
  | .hbm, ⟨115, _⟩ => ⟨S150000x64, .f32⟩
  | .hbm, ⟨116, _⟩ => ⟨S1200000x1, .i32⟩
  | .hbm, ⟨117, _⟩ => ⟨S150000x64, .f32⟩
  | .hbm, ⟨118, _⟩ => ⟨S150000x64, .f32⟩
  | .hbm, ⟨119, _⟩ => ⟨S150000x64, .f32⟩
  | .local _ .vmem, ⟨0, _⟩ => ⟨S400x4096, .f32⟩
  | .local _ .vmem, ⟨1, _⟩ => ⟨S400x4096, .f32⟩
  | .local _ .vmem, ⟨2, _⟩ => ⟨S4096x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S400x64, .f32⟩
  | .local _ .vmem, ⟨7, _⟩ => ⟨S400x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | _, _ => ⟨S2x1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_c_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_17 : Ref sig .tc := ⟨.hbm, 92, rfl⟩
abbrev main_v66 : Ref sig .tc := ⟨.hbm, 93, rfl⟩
abbrev main_v67 : Ref sig .tc := ⟨.hbm, 94, rfl⟩
abbrev main_c_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_19 : Ref sig .tc := ⟨.hbm, 103, rfl⟩
abbrev main_v75 : Ref sig .tc := ⟨.hbm, 104, rfl⟩
abbrev main_v76 : Ref sig .tc := ⟨.hbm, 105, rfl⟩
abbrev main_c_20 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_21 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  shapeCasts_S256_S1x256 : S256.ShapeCasts S1x256
  shapeCasts_S64_S1x64 : S64.ShapeCasts S1x64
  inb_S400x4096_S400x4096_0_0 : ∀ a, (![0, 0] : Fin 2 → Nat) a + S400x4096.size a ≤ S400x4096.size a
  h_S400x4096 : 0 < S400x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  concatenates_S100000x64_S50000x64_S150000x64_d0 : Shape.Concatenates [S100000x64, S50000x64] S150000x64 0
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  reduces_S1000x64_S1000 : S1000x64.Reduces [1] S1000
  shapeCasts_S1000_S1000x1 : S1000.ShapeCasts S1000x1
  broadcasts_S1000x1_S1000x64 : S1000x1.Broadcasts S1000x64
  bcast_S_S150000 : S_.BroadcastsInDim S150000 (![] : Fin 0 → Fin S150000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  dot_S400x4096_S4096x256_S400x256_1_0_0_1_n_n_wf : DotDims.WF S400x4096 S4096x256 S400x256 [1] [0] [0] [1] [] []
  dot_S400x256_S256x64_S400x64_1_0_0_1_n_n_wf : DotDims.WF S400x256 S256x64 S400x64 [1] [0] [0] [1] [] []
  scatter_S150000_S1200000x1_S1200000_n_0_0_1_wf : ScatterDims.WF S150000 S1200000x1 S1200000 [] [0] [0] 1
  gather_S150000_S1200000x1_S1200000_n_0_n_n_0_1_1_wf : GatherDims.WF S150000 S1200000x1 S1200000 [] [0] [] [0] [] 1 ![1]
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x4096.size a ≤ S50000x4096.size a
  hwx0_0 : ∀ i : grid0.Coords, EltTy.bits .f32 = 32 ∨ (Rect.block (s := S50000x4096) S400x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S50000x64.size a
  hwx0_5 : ∀ i : grid0.Coords, EltTy.bits .f32 = 32 ∨ (Rect.block (s := S50000x64) S400x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S150000x64.size a
  hwx1_0 : ∀ i : grid1.Coords, EltTy.bits .f32 = 32 ∨ (Rect.block (s := S150000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S150000x64.size a
  hwx1_1 : ∀ i : grid1.Coords, EltTy.bits .f32 = 32 ∨ (Rect.block (s := S150000x64) S1000x64.size (cc1_transform_1 i) (hinb1_1 i)).WholeWords (EltTy.packing .f32)

variable [Facts₀]

def dot_S400x4096_S4096x256_S400x256_1_0_0_1_n_n : DotDims S400x4096 S4096x256 S400x256 where
  lhsContracting := [1]
  rhsContracting := [0]
  lhsNonContracting := [0]
  rhsNonContracting := [1]
  lhsBatch := []
  rhsBatch := []
  wf := dot_S400x4096_S4096x256_S400x256_1_0_0_1_n_n_wf
def dot_S400x256_S256x64_S400x64_1_0_0_1_n_n : DotDims S400x256 S256x64 S400x64 where
  lhsContracting := [1]
  rhsContracting := [0]
  lhsNonContracting := [0]
  rhsNonContracting := [1]
  lhsBatch := []
  rhsBatch := []
  wf := dot_S400x256_S256x64_S400x64_1_0_0_1_n_n_wf
def scatter_S150000_S1200000x1_S1200000_n_0_0_1 : ScatterDims S150000 S1200000x1 S1200000 where
  updateWindowDims := []
  insertedWindowDims := [0]
  scatterDimsToOperandDims := [0]
  indexVectorDim := 1
  wf := scatter_S150000_S1200000x1_S1200000_n_0_0_1_wf
def gather_S150000_S1200000x1_S1200000_n_0_n_n_0_1_1 : GatherDims S150000 S1200000x1 S1200000 where
  offsetDims := []
  collapsedSliceDims := [0]
  operandBatchingDims := []
  startIndicesBatchingDims := []
  startIndexMap := [0]
  indexVectorDim := 1
  sliceSizes := ![1]
  wf := gather_S150000_S1200000x1_S1200000_n_0_n_n_0_1_1_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf

abbrev win0_0 : Pipeline.Window sig grid0 :=
  Pipeline.Window.ofSpec (Memref.whole main_arg1) S400x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S2x1200000 : Shape := ⟨2, ![2, 1200000]⟩
abbrev S50000x4096 : Shape := ⟨2, ![50000, 4096]⟩
abbrev S100000x64 : Shape := ⟨2, ![100000, 64]⟩
abbrev S4096x256 : Shape := ⟨2, ![4096, 256]⟩
abbrev S256 : Shape := ⟨1, ![256]⟩
abbrev S256x64 : Shape := ⟨2, ![256, 64]⟩
abbrev S64 : Shape := ⟨1, ![64]⟩
abbrev S1x1200000 : Shape := ⟨2, ![1, 1200000]⟩
abbrev S1200000 : Shape := ⟨1, ![1200000]⟩
abbrev S50000x256 : Shape := ⟨2, ![50000, 256]⟩
abbrev S1x256 : Shape := ⟨2, ![1, 256]⟩
abbrev S_ : Shape := ⟨0, ![]⟩
abbrev S50000x64 : Shape := ⟨2, ![50000, 64]⟩
abbrev S1x64 : Shape := ⟨2, ![1, 64]⟩
abbrev S150000x64 : Shape := ⟨2, ![150000, 64]⟩
abbrev S150000 : Shape := ⟨1, ![150000]⟩
abbrev S150000x1 : Shape := ⟨2, ![150000, 1]⟩
abbrev S1200000x1 : Shape := ⟨2, ![1200000, 1]⟩
abbrev S1200000x64 : Shape := ⟨2, ![1200000, 64]⟩

abbrev nBuf : Space → Nat
  | .hbm => 142
  | .vmem => 0
  | .smem => 0
  | _ => 0

abbrev hbmTy0_0 (i : Nat) : BufTy := match i % 128 with
  | 0 => ⟨S2x1200000, .i32⟩
  | 1 => ⟨S50000x4096, .f32⟩
  | 2 => ⟨S100000x64, .f32⟩
  | 3 => ⟨S4096x256, .f32⟩
  | 4 => ⟨S256, .f32⟩
  | 5 => ⟨S256x64, .f32⟩
  | 6 => ⟨S64, .f32⟩
  | 7 => ⟨S1x1200000, .i32⟩
  | 8 => ⟨S1200000, .i32⟩
  | 9 => ⟨S1x1200000, .i32⟩
  | 10 => ⟨S1200000, .i32⟩
  | 11 => ⟨S50000x256, .f32⟩
  | 12 => ⟨S1x256, .f32⟩
  | 13 => ⟨S50000x256, .f32⟩
  | 14 => ⟨S50000x256, .f32⟩
  | 15 => ⟨S_, .f32⟩
  | 16 => ⟨S_, .f32⟩
  | 17 => ⟨S50000x256, .f32⟩
  | 18 => ⟨S50000x256, .i1⟩
  | 19 => ⟨S_, .f32⟩
  | 20 => ⟨S50000x256, .f32⟩
  | 21 => ⟨S50000x256, .f32⟩
  | 22 => ⟨S50000x256, .f32⟩
  | 23 => ⟨S50000x64, .f32⟩
  | 24 => ⟨S1x64, .f32⟩
  | 25 => ⟨S50000x64, .f32⟩
  | 26 => ⟨S50000x64, .f32⟩
  | 27 => ⟨S150000x64, .f32⟩
  | 28 => ⟨S150000x64, .f32⟩
  | 29 => ⟨S_, .f32⟩
  | 30 => ⟨S150000, .f32⟩
  | 31 => ⟨S150000x1, .f32⟩
  | 32 => ⟨S150000x1, .f32⟩
  | 33 => ⟨S_, .f32⟩
  | 34 => ⟨S150000x1, .f32⟩
  | 35 => ⟨S150000x1, .f32⟩
  | 36 => ⟨S150000x64, .f32⟩
  | 37 => ⟨S150000x64, .f32⟩
  | 38 => ⟨S_, .f32⟩
  | 39 => ⟨S150000, .f32⟩
  | 40 => ⟨S_, .f32⟩
  | 41 => ⟨S1200000, .f32⟩
  | 42 => ⟨S_, .i32⟩
  | 43 => ⟨S1200000, .i32⟩
  | 44 => ⟨S1200000, .i1⟩
  | 45 => ⟨S_, .i32⟩
  | 46 => ⟨S1200000, .i32⟩
  | 47 => ⟨S1200000, .i32⟩
  | 48 => ⟨S1200000, .i32⟩
  | 49 => ⟨S1200000x1, .i32⟩
  | 50 => ⟨S150000, .f32⟩
  | 51 => ⟨S_, .f32⟩
  | 52 => ⟨S150000, .f32⟩
  | 53 => ⟨S150000, .f32⟩
  | 54 => ⟨S_, .i32⟩
  | 55 => ⟨S1200000, .i32⟩
  | 56 => ⟨S1200000, .i1⟩
  | 57 => ⟨S_, .i32⟩
  | 58 => ⟨S1200000, .i32⟩
  | 59 => ⟨S1200000, .i32⟩
  | 60 => ⟨S1200000, .i32⟩
  | 61 => ⟨S1200000x1, .i32⟩
  | 62 => ⟨S1200000, .f32⟩
  | 63 => ⟨S_, .i32⟩
  | 64 => ⟨S1200000, .i32⟩
  | 65 => ⟨S1200000, .i1⟩
  | 66 => ⟨S_, .i32⟩
  | 67 => ⟨S1200000, .i32⟩
  | 68 => ⟨S1200000, .i32⟩
  | 69 => ⟨S1200000, .i32⟩
  | 70 => ⟨S1200000x1, .i32⟩
  | 71 => ⟨S1200000, .f32⟩
  | 72 => ⟨S1200000, .f32⟩
  | 73 => ⟨S1200000x1, .f32⟩
  | 74 => ⟨S_, .i32⟩
  | 75 => ⟨S1200000, .i32⟩
  | 76 => ⟨S1200000, .i1⟩
  | 77 => ⟨S_, .i32⟩
  | 78 => ⟨S1200000, .i32⟩
  | 79 => ⟨S1200000, .i32⟩
  | 80 => ⟨S1200000, .i32⟩
  | 81 => ⟨S1200000x1, .i32⟩
  | 82 => ⟨S1200000x64, .f32⟩
  | 83 => ⟨S1200000x64, .f32⟩
  | 84 => ⟨S1200000x64, .f32⟩
  | 85 => ⟨S_, .f32⟩
  | 86 => ⟨S150000x64, .f32⟩
  | 87 => ⟨S1200000x1, .i32⟩
  | 88 => ⟨S150000x64, .f32⟩
  | 89 => ⟨S_, .f32⟩
  | 90 => ⟨S150000, .f32⟩
  | 91 => ⟨S_, .f32⟩
  | 92 => ⟨S1200000, .f32⟩
  | 93 => ⟨S_, .i32⟩
  | 94 => ⟨S1200000, .i32⟩
  | 95 => ⟨S1200000, .i1⟩
  | 96 => ⟨S_, .i32⟩
  | 97 => ⟨S1200000, .i32⟩
  | 98 => ⟨S1200000, .i32⟩
  | 99 => ⟨S1200000, .i32⟩
  | 100 => ⟨S1200000x1, .i32⟩
  | 101 => ⟨S150000, .f32⟩
  | 102 => ⟨S_, .f32⟩
  | 103 => ⟨S150000, .f32⟩
  | 104 => ⟨S150000, .f32⟩
  | 105 => ⟨S_, .i32⟩
  | 106 => ⟨S1200000, .i32⟩
  | 107 => ⟨S1200000, .i1⟩
  | 108 => ⟨S_, .i32⟩
  | 109 => ⟨S1200000, .i32⟩
  | 110 => ⟨S1200000, .i32⟩
  | 111 => ⟨S1200000, .i32⟩
  | 112 => ⟨S1200000x1, .i32⟩
  | 113 => ⟨S1200000, .f32⟩
  | 114 => ⟨S_, .i32⟩
  | 115 => ⟨S1200000, .i32⟩
  | 116 => ⟨S1200000, .i1⟩
  | 117 => ⟨S_, .i32⟩
  | 118 => ⟨S1200000, .i32⟩
  | 119 => ⟨S1200000, .i32⟩
  | 120 => ⟨S1200000, .i32⟩
  | 121 => ⟨S1200000x1, .i32⟩
  | 122 => ⟨S1200000, .f32⟩
  | 123 => ⟨S1200000, .f32⟩
  | 124 => ⟨S1200000x1, .f32⟩
  | 125 => ⟨S_, .i32⟩
  | 126 => ⟨S1200000, .i32⟩
  | 127 => ⟨S1200000, .i1⟩
  | _ => ⟨S2x1200000, .i32⟩

abbrev hbmTy0_1 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000x64, .f32⟩
  | 6 => ⟨S1200000x64, .f32⟩
  | 7 => ⟨S1200000x64, .f32⟩
  | 8 => ⟨S_, .f32⟩
  | 9 => ⟨S150000x64, .f32⟩
  | 10 => ⟨S1200000x1, .i32⟩
  | 11 => ⟨S150000x64, .f32⟩
  | 12 => ⟨S150000x64, .f32⟩
  | 13 => ⟨S150000x64, .f32⟩
  | _ => ⟨S2x1200000, .i32⟩

abbrev hbmTy (i : Nat) : BufTy := match i / 128 with
  | 0 => hbmTy0_0 i
  | 1 => hbmTy0_1 i
  | _ => ⟨S2x1200000, .i32⟩

abbrev bufTy : (tb : Table) → Fin (tcTables nBuf tb) → BufTy
  | .hbm, ⟨i, _⟩ => hbmTy i
  | _, _ => ⟨S2x1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_c_14 : Ref sig .tc := ⟨.hbm, 93, rfl⟩
abbrev main_v60 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_16 : Ref sig .tc := ⟨.hbm, 102, rfl⟩
abbrev main_v67 : Ref sig .tc := ⟨.hbm, 103, rfl⟩
abbrev main_v68 : Ref sig .tc := ⟨.hbm, 104, rfl⟩
abbrev main_c_17 : Ref sig .tc := ⟨.hbm, 105, rfl⟩
abbrev main_v69 : Ref sig .tc := ⟨.hbm, 106, rfl⟩
abbrev main_v70 : Ref sig .tc := ⟨.hbm, 107, rfl⟩
abbrev main_c_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_19 : Ref sig .tc := ⟨.hbm, 114, rfl⟩
abbrev main_v76 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_21 : Ref sig .tc := ⟨.hbm, 125, rfl⟩
abbrev main_v85 : Ref sig .tc := ⟨.hbm, 126, rfl⟩
abbrev main_v86 : Ref sig .tc := ⟨.hbm, 127, rfl⟩
abbrev main_c_22 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_23 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S100000x64_S50000x64_S150000x64_d0 : Shape.Concatenates [S100000x64, S50000x64] S150000x64 0
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  bcast_S_S150000 : S_.BroadcastsInDim S150000 (![] : Fin 0 → Fin S150000.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  dot_S50000x4096_S4096x256_S50000x256_1_0_0_1_n_n_wf : DotDims.WF S50000x4096 S4096x256 S50000x256 [1] [0] [0] [1] [] []
  dot_S50000x256_S256x64_S50000x64_1_0_0_1_n_n_wf : DotDims.WF S50000x256 S256x64 S50000x64 [1] [0] [0] [1] [] []
  scatter_S150000_S1200000x1_S1200000_n_0_0_1_wf : ScatterDims.WF S150000 S1200000x1 S1200000 [] [0] [0] 1
  gather_S150000_S1200000x1_S1200000_n_0_n_n_0_1_1_wf : GatherDims.WF S150000 S1200000x1 S1200000 [] [0] [] [0] [] 1 ![1]
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1

variable [Facts₀]

def dot_S50000x4096_S4096x256_S50000x256_1_0_0_1_n_n : DotDims S50000x4096 S4096x256 S50000x256 where
  lhsContracting := [1]
  rhsContracting := [0]
  lhsNonContracting := [0]
  rhsNonContracting := [1]
  lhsBatch := []
  rhsBatch := []
  wf := dot_S50000x4096_S4096x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S150000_S1200000x1_S1200000_n_0_0_1 : ScatterDims S150000 S1200000x1 S1200000 where
  updateWindowDims := []
  insertedWindowDims := [0]
  scatterDimsToOperandDims := [0]
  indexVectorDim := 1
  wf := scatter_S150000_S1200000x1_S1200000_n_0_0_1_wf
def gather_S150000_S1200000x1_S1200000_n_0_n_n_0_1_1 : GatherDims S150000 S1200000x1 S1200000 where
  offsetDims := []
  collapsedSliceDims := [0]
  operandBatchingDims := []
  startIndicesBatchingDims := []
  startIndexMap := [0]
  indexVectorDim := 1
  sliceSizes := ![1]
  wf := gather_S150000_S1200000x1_S1200000_n_0_n_n_0_1_1_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf

class Facts : Prop extends Facts₀ where

variable [Facts]
-- ==== Proof.KernelRun.lean ====
/-
  The idealized kernel program's run with its result buffer named.

  @main is five segments: the host operations before the first region, the perceptron region, the concatenation, the
  normalisation region, and the host operations after it. At every segment boundary the TensorCore's buffers hold a
  known fold of the launch memory; at the end every unscoped buffer holds the last fold. Read at the result buffer
  this names the program's result as a term of the launch memory; read at an argument it walks back to the launch
  contents, since no host operation and no region writes an argument.
-/
import proofs.«132829_j42932493091126_1_alg».proof.Proof.Gen.KernelIdeal.Frame

set_option maxRecDepth 16384

noncomputable section

namespace Cert.KernelIdeal.NodeValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the seven arguments as launched. -/
theorem run_named : θ_run defs (onTc (τ := τ) (main (F := F))) ⟨m, fun _ => 0, ρ⟩ (fun r => ∀ c : Dev nD,
      r.2.mem ((c.tc : Thread nD τ).loc main_v88) = W5 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v88 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.NodeValue

end
-- ==== Proof.GraphTail.lean ====
/-
  The two graph convolutions both programs apply, on the host, to the normalised node table, as ONE function of the
  edge array's two rows and of the table.

  An edge e runs from node row(e) to node col(e); a negative index is wrapped once by the number of nodes. The degree
  of a node is the number of edges whose row it is (a scatter-add of ones), its weight the degree to the power −1/2,
  and the weight of an edge the product of its two ends' weights. One convolution gathers the table's row row(e) for
  every edge, scales it by the edge's weight and adds it into row col(e) of a zero table. The result is the table
  plus its convolution plus the convolution of that convolution.
  Both programs spell these operations identically, so the function is carried whole: nothing below opens it.
-/
import proofs.«132829_j42932493091126_1_alg».proof.Proof.Gen.KernelIdeal
import Idealize.ShloMosaic.PureOps.Ideal

noncomputable section

namespace Cert.Gcn

open Idealize.ShloMosaic Cert.KernelIdeal Cert.KernelIdeal.Facts₀ Cert.KernelIdeal.Facts

/-- The edges' source nodes: row 0 of the edge array as a vector. -/
def edgeRow (a0 : IVec S2x1200000 32) : IVec S1200000 32 :=
  fun i => shapeCast S1200000 (extractStridedSlice S1x1200000 ![0, 0] a0 slices_S2x1200000_S1x1200000_0_0)
    shapeCasts_S1x1200000_S1200000 i

/-- The edges' target nodes: row 1 of the edge array as a vector. -/
def edgeCol (a0 : IVec S2x1200000 32) : IVec S1200000 32 :=
  fun i => shapeCast S1200000 (extractStridedSlice S1x1200000 ![1, 0] a0 slices_S2x1200000_S1x1200000_1_0)
    shapeCasts_S1x1200000_S1200000 i

/-- A node index per edge as a one-column index array, a negative index wrapped by the number of nodes. -/
def wrapIdx (r : IVec S1200000 32) : IVec S1200000x1 32 :=
  broadcastInDim S1200000x1 ![0] bcast_S1200000_S1200000x1_0
    (select (cmpi .slt r (broadcastInDim S1200000 ![] bcast_S_S1200000 (constantI S_ 32 0#32)))
      (addi r (broadcastInDim S1200000 ![] bcast_S_S1200000 (constantI S_ 32 150000#32))) r)

/-- Every node's degree (edges counted at their source) to the power −1/2. -/
def invSqrtDeg (row : IVec S1200000 32) : FVec Ideal S150000 .f32 :=
  Host.powf (F := Ideal)
    (Host.scatterAdd (F := Ideal) scatter_S150000_S1200000x1_S1200000_n_0_0_1
      (broadcastInDim S150000 ![] bcast_S_S150000 (constant (F := Ideal) S_ .f32 0x00000000#32))
      (wrapIdx row)
      (broadcastInDim S1200000 ![] bcast_S_S1200000 (constant (F := Ideal) S_ .f32 0x3F800000#32)))
    (broadcastInDim S150000 ![] bcast_S_S150000 (constant (F := Ideal) S_ .f32 0xBF000000#32))

/-- Every edge's weight: the product of its two ends' weights. -/
def edgeWeight (row col : IVec S1200000 32) : FVec Ideal S1200000 .f32 :=
  mulf (Host.gather gather_S150000_S1200000x1_S1200000_n_0_n_n_0_1_1 (invSqrtDeg row) (wrapIdx row))
    (Host.gather gather_S150000_S1200000x1_S1200000_n_0_n_n_0_1_1 (invSqrtDeg row) (wrapIdx col))

/-- One convolution: each edge carries its source's row, scaled by the edge's weight, into its target's row. -/
def conv (row col : IVec S1200000 32) (x : FVec Ideal S150000x64 .f32) : FVec Ideal S150000x64 .f32 :=
  Host.scatterAdd (F := Ideal) scatter_S150000x64_S1200000x1_S1200000x64_1_0_0_1
    (broadcastInDim S150000x64 ![] bcast_S_S150000x64 (constant (F := Ideal) S_ .f32 0x00000000#32))
    (broadcastInDim S1200000x1 ![0] bcast_S1200000_S1200000x1_0 col)
    (mulf
      (broadcastInDim S1200000x64 ![0, 1] bcast_S1200000x1_S1200000x64_0_1
        (broadcastInDim S1200000x1 ![0] bcast_S1200000_S1200000x1_0 (edgeWeight row col)))
      (Host.gather gather_S150000x64_S1200000x1_S1200000x64_1_0_n_n_0_1_164 x (wrapIdx row)))

/-- The table plus its convolution plus the convolution of the convolution. -/
def tail (row col : IVec S1200000 32) (x : FVec Ideal S150000x64 .f32) : FVec Ideal S150000x64 .f32 :=
  addf (addf x (conv row col x)) (conv row col (conv row col x))

end Cert.Gcn

end
-- ==== Proof.KernelGlue.lean ====
/-
  The kernel program's buffers at its segment boundaries, read back to the launch memory.

  Before the perceptron region the host only slices the edge array into its two rows and gives the two bias vectors
  a leading unit axis; the float arguments are untouched. Between the two regions it stacks the user rows on the
  perceptron's output. A buffer no segment writes holds at every later boundary what it held before.
-/
import proofs.«132829_j42932493091126_1_alg».proof.Proof.Gen.KernelIdeal.Frame
import proofs.«132829_j42932493091126_1_alg».proof.Proof.GraphTail
import Idealize.ShloMosaic.Lib.StableHlo.Run
import Idealize.ShloMosaic.Lib.ValueLayout

set_option maxRecDepth 16384

noncomputable section

namespace Cert.KernelIdeal.NodeValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## At the first region's entry -/

theorem entry_arg1 (c : Dev nD) : V1 m ρ c main_arg1 = m ((c : Thread nD τ).loc main_arg1) := by
  show StableHlo.after hostOps0 (W0 m ρ c) (Proc.devRef .tc main_arg1) = _
  after_results

theorem entry_arg3 (c : Dev nD) : V1 m ρ c main_arg3 = m ((c : Thread nD τ).loc main_arg3) := by
  show StableHlo.after hostOps0 (W0 m ρ c) (Proc.devRef .tc main_arg3) = _
  after_results

theorem entry_arg5 (c : Dev nD) : V1 m ρ c main_arg5 = m ((c : Thread nD τ).loc main_arg5) := by
  show StableHlo.after hostOps0 (W0 m ρ c) (Proc.devRef .tc main_arg5) = _
  after_results

theorem entry_arg2 (c : Dev nD) : W1 m ρ c (Proc.devRef .tc main_arg2) = m ((c : Thread nD τ).loc main_arg2) := by
  show StableHlo.after hostOps0 (W0 m ρ c) (Proc.devRef .tc main_arg2) = _
  after_results

/-- The first bias as a row: entry (0, k) is the vector's entry k. -/
theorem entry_bias1 (c : Dev nD) (k : Fin 256) :
    V1 m ρ c main_v4 (ix2 (0 : Fin 1) k) = m ((c : Thread nD τ).loc main_arg4) (ix1 k) := by
  have e : V1 m ρ c main_v4
      = fun i => shapeCast S1x256 (m ((c : Thread nD τ).loc main_arg4)) Facts₀.shapeCasts_S256_S1x256 i := by
    show StableHlo.after hostOps0 (W0 m ρ c) (Proc.devRef .tc main_v4) = _
    after_results
    rfl
  rw [e]
  exact shapeCast_a_1a_apply _ _ (0 : Fin 1) k

/-- The second bias as a row: entry (0, k) is the vector's entry k. -/
theorem entry_bias2 (c : Dev nD) (k : Fin 64) :
    V1 m ρ c main_v5 (ix2 (0 : Fin 1) k) = m ((c : Thread nD τ).loc main_arg6) (ix1 k) := by
  have e : V1 m ρ c main_v5
      = fun i => shapeCast S1x64 (m ((c : Thread nD τ).loc main_arg6)) Facts₀.shapeCasts_S64_S1x64 i := by
    show StableHlo.after hostOps0 (W0 m ρ c) (Proc.devRef .tc main_v5) = _
    after_results
    rfl
  rw [e]
  exact shapeCast_a_1a_apply _ _ (0 : Fin 1) k

/-- The edges' source vector at the first region's entry. -/
theorem entry_row (c : Dev nD) :
    W1 m ρ c (Proc.devRef .tc main_v1) = Cert.Gcn.edgeRow (m ((c : Thread nD τ).loc main_arg0)) := by
  show StableHlo.after hostOps0 (W0 m ρ c) (Proc.devRef .tc main_v1) = _
  after_results
  rfl

/-- The edges' target vector at the first region's entry. -/
theorem entry_col (c : Dev nD) :
    W1 m ρ c (Proc.devRef .tc main_v3) = Cert.Gcn.edgeCol (m ((c : Thread nD τ).loc main_arg0)) := by
  show StableHlo.after hostOps0 (W0 m ρ c) (Proc.devRef .tc main_v3) = _
  after_results
  rfl

/-! ## Between the regions and after them -/

/-- The normalisation region's input: the user rows stacked on the perceptron region's output array. -/
theorem mid_table (c : Dev nD) :
    V3 m ρ c main_v7 = concatenate S150000x64 0
      [⟨S100000x64, m ((c : Thread nD τ).loc main_arg2)⟩, ⟨S50000x64, (dat0 (V1 m ρ) c).arrAt 5 cfg0.N⟩]
      Facts₀.concatenates_S100000x64_S50000x64_S150000x64_d0 := by
  show StableHlo.after hostOps1 (W2 m ρ c) (Proc.devRef .tc main_v7) = _
  after_results
  rw [show W2 m ρ c (Proc.devRef .tc main_arg2) = m ((c : Thread nD τ).loc main_arg2) from
      (W2_of_ne m ρ c main_arg2 (by decide)).trans (entry_arg2 m ρ c),
    show W2 m ρ c (Proc.devRef .tc main_v6) = (dat0 (V1 m ρ) c).arrAt 5 cfg0.N from W2_arr m ρ c 5]

/-- A buffer neither region writes and the stacking does not write holds, after the second region, what it held at
    the first region's entry: the edges' source vector. -/
theorem late_row (c : Dev nD) :
    W4 m ρ c (Proc.devRef .tc main_v1) = Cert.Gcn.edgeRow (m ((c : Thread nD τ).loc main_arg0)) := by
  have h3 : W3 m ρ c (Proc.devRef .tc main_v1) = W2 m ρ c (Proc.devRef .tc main_v1) := by
    show StableHlo.after hostOps1 (W2 m ρ c) (Proc.devRef .tc main_v1) = _
    after_results
    try rfl
  exact (W4_of_ne m ρ c main_v1 (by decide)).trans
    (h3.trans ((W2_of_ne m ρ c main_v1 (by decide)).trans (entry_row m ρ c)))

/-- The same for the edges' target vector. -/
theorem late_col (c : Dev nD) :
    W4 m ρ c (Proc.devRef .tc main_v3) = Cert.Gcn.edgeCol (m ((c : Thread nD τ).loc main_arg0)) := by
  have h3 : W3 m ρ c (Proc.devRef .tc main_v3) = W2 m ρ c (Proc.devRef .tc main_v3) := by
    show StableHlo.after hostOps1 (W2 m ρ c) (Proc.devRef .tc main_v3) = _
    after_results
    try rfl
  exact (W4_of_ne m ρ c main_v3 (by decide)).trans
    (h3.trans ((W2_of_ne m ρ c main_v3 (by decide)).trans (entry_col m ρ c)))

/-- After the second region the normalised table's buffer holds that region's output array. -/
theorem late_table (c : Dev nD) :
    W4 m ρ c (Proc.devRef .tc main_v8) = (dat1 (V3 m ρ) c).arrAt 1 cfg1.N := W4_arr m ρ c 1

end Cert.KernelIdeal.NodeValue

end
-- ==== Proof.KernelTail.lean ====
/-
  The kernel program's host operations after the normalisation region, read as the graph tail.

  From any buffer contents W the last stretch of @main — the two graph convolutions and the two sums — leaves in the
  result buffer the graph tail of three of W's buffers: the edges' source vector, their target vector and the
  normalised node table. The stretch's operations are the graph tail's own, in order, so once each operation's result
  is read at its own buffer the two sides are one term.
-/
import proofs.«132829_j42932493091126_1_alg».proof.Proof.Gen.KernelIdeal.Launch
import proofs.«132829_j42932493091126_1_alg».proof.Proof.GraphTail
import Idealize.ShloMosaic.Lib.StableHlo.Run

noncomputable section

namespace Cert.KernelIdeal.NodeValue

open Idealize.ShloMosaic Idealize.ShloMosaic.TcCoe Idealize.SL.Sem
open Cert.KernelIdeal Cert.KernelIdeal.Gen

set_option maxHeartbeats 4000000 in
/-- The result buffer after the last host stretch, from contents W. -/
theorem tail_read (W : Valuation τ sig (Elt Ideal)) :
    StableHlo.after (hostOps2 (F := Ideal)) W (Proc.devRef .tc main_v88)
      = Cert.Gcn.tail (W (Proc.devRef .tc main_v1)) (W (Proc.devRef .tc main_v3)) (W (Proc.devRef .tc main_v8)) := by
  after_results_simp
  rfl

end Cert.KernelIdeal.NodeValue

end
-- ==== Proof.RowFormulas.lean ====
/-
  The row formulas of the item tower and of the row normalisation, over the extended reals.

  An item row is a two-layer perceptron of its feature row: the hidden unit k is the leaky rectifier of
  Σ_l x(i, l) · W1(l, k) + b1(k), and the output column j is Σ_k hidden(k) · W2(k, j) + b2(j). The leaky rectifier keeps a
  value that is at least zero and scales any other by the slope word (the f32 nearest to one hundredth).
  A normalised row is the row divided, entry by entry, by the larger of its Euclidean norm — the square root of the
  sum of the squares of its 64 entries — and a floor word (the f32 nearest to 1e-12).
  Both formulas are stated for an array of ANY number of rows, so that they read a block of rows and the whole array
  alike; the node table is the user rows on top of the item rows, every row normalised.
-/
import Idealize.ShloMosaic.Lib.ValueIdx
import Idealize.ShloMosaic.PureOps.Ideal.Laws

noncomputable section

open scoped BigOperators

namespace Cert.Gcn

open Idealize.ShloMosaic Idealize.ShloMosaic.ValueIdx

/-- The leaky rectifier: `z` when `z ≥ 0`, the slope word times `z` otherwise (compare, scale, select). -/
def leaky (z : EReal) : EReal :=
  Scalar.select (FloatOps.cmpf (F := Ideal) (φ := .f32) .oge z (Ideal.ofBits .f32 0x00000000#32)) z
    (Ideal.ofBits .f32 0x3C23D70A#32 * z)

/-- Entry (i, j) of the two-layer perceptron of the rows of `x`. -/
def mlpRow {M : ℕ} (x : FVec Ideal ⟨2, ![M, 4096]⟩ .f32) (w1 : FVec Ideal ⟨2, ![4096, 256]⟩ .f32) (b1 : Fin 256 → EReal)
    (w2 : FVec Ideal ⟨2, ![256, 64]⟩ .f32) (b2 : Fin 64 → EReal) (i : Fin M) (j : Fin 64) : EReal :=
  ∑ k : Fin 256, leaky (∑ l : Fin 4096, x (ix2 i l) * w1 (ix2 l k) + b1 k) * w2 (ix2 k j) + b2 j

/-- Entry (r, j) of the rows of `z`, each divided by the larger of its Euclidean norm and the floor word. -/
def unitRow {M : ℕ} (z : FVec Ideal ⟨2, ![M, 64]⟩ .f32) (r : Fin M) (j : Fin 64) : EReal :=
  Ideal.div (z (ix2 r j))
    (max (Ideal.sqrt (∑ k : Fin 64, z (ix2 r k) * z (ix2 r k))) (Ideal.ofBits .f32 0x2B8CBCCC#32))

/-- The item rows: the perceptron of the feature rows, the two bias vectors read by their one coordinate. -/
def items (a1 : FVec Ideal ⟨2, ![50000, 4096]⟩ .f32) (a3 : FVec Ideal ⟨2, ![4096, 256]⟩ .f32) (a4 : FVec Ideal ⟨1, ![256]⟩ .f32)
    (a5 : FVec Ideal ⟨2, ![256, 64]⟩ .f32) (a6 : FVec Ideal ⟨1, ![64]⟩ .f32) : FVec Ideal ⟨2, ![50000, 64]⟩ .f32 :=
  fun idx => mlpRow a1 a3 (fun k => a4 (ix1 k)) a5 (fun k => a6 (ix1 k)) (idx 0) (idx 1)

/-- The user rows on top of the item rows: row r is user row r below 100000 and item row r − 100000 from there on. -/
def stacked (a2 : FVec Ideal ⟨2, ![100000, 64]⟩ .f32) (y : FVec Ideal ⟨2, ![50000, 64]⟩ .f32) :
    FVec Ideal ⟨2, ![150000, 64]⟩ .f32 :=
  fun idx => if h : (idx 0).val < 100000 then a2 (ix2 ⟨(idx 0).val, h⟩ (idx 1))
    else y (ix2 ⟨(idx 0).val - 100000, by have := idx2_lt0 idx; omega⟩ (idx 1))

/-- Every row of an array of 64 columns normalised. -/
def unitRows {M : ℕ} (z : FVec Ideal ⟨2, ![M, 64]⟩ .f32) : FVec Ideal ⟨2, ![M, 64]⟩ .f32 :=
  fun idx => unitRow z (idx 0) (idx 1)

/-- The normalised node table as one function of the six float arguments. -/
def nodes (a1 : FVec Ideal ⟨2, ![50000, 4096]⟩ .f32) (a2 : FVec Ideal ⟨2, ![100000, 64]⟩ .f32)
    (a3 : FVec Ideal ⟨2, ![4096, 256]⟩ .f32) (a4 : FVec Ideal ⟨1, ![256]⟩ .f32) (a5 : FVec Ideal ⟨2, ![256, 64]⟩ .f32)
    (a6 : FVec Ideal ⟨1, ![64]⟩ .f32) : FVec Ideal ⟨2, ![150000, 64]⟩ .f32 :=
  unitRows (stacked a2 (items a1 a3 a4 a5 a6))

end Cert.Gcn

end
-- ==== Proof.ItemsArray.lean ====
/-
  The item rows as one array.

  The first tiled region walks the 50000 feature rows in 125 blocks of 400 rows. At block t it leaves, in rows
  400·t … 400·t + 399 of its output array, the two-layer perceptron of the 400 feature rows it was handed, with the
  two weight matrices and the two bias rows whole at every block. Since the perceptron of a row reads that row only,
  the perceptron of the block of rows 400·t + p is the perceptron of the whole feature array at row 400·t + p; the
  125 blocks tile the 50000 rows (row r lies in block r / 400), so the output array ends as the perceptron of every
  feature row.
-/
import proofs.«132829_j42932493091126_1_alg».proof.Proof.Gen.KernelIdeal.Frame
import proofs.«132829_j42932493091126_1_alg».proof.Proof.RowFormulas
import Idealize.ShloMosaic.Lib.Pipeline.Value

noncomputable section

open scoped BigOperators

namespace Cert.KernelIdeal.NodeValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets (0, 0), spelt as the constant function. -/
theorem zero_offsets : (![0, 0] : Fin 2 → Nat) = fun _ => 0 := funext fun a => by fin_cases a <;> rfl

/-- Where block t sits: the feature window and the output window are at block row t, block column 0; the four
    parameter windows are at block (0, 0) at every t. -/
theorem mlp_block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, l) of the feature block at t is entry (400·t + p, l) of the feature array. -/
theorem features_block (c : Dev nD) (t : Fin cfg0.N) (p : Fin 400) (l : Fin 4096) (r : Fin 50000)
    (hr : r.val = 400 * t.val + p.val) :
    (iblk0 V c 0 t : Vec Ideal S400x4096 .f32) (ix2 p l) = (V c main_arg1 : S50000x4096.Idx → EReal) (ix2 r l) := by
  obtain ⟨e0, e1, -⟩ := mlp_block_index t
  unfold iblk0
  rw [View.read_apply]
  show V c main_arg1 _ = V c main_arg1 _
  congr 1
  funext a
  apply Fin.ext
  match a with
  | ⟨0, _⟩ => show win0_0.index t (0 : Fin 2) * 400 + 1 * p.val = r.val; rw [e0, hr]; omega
  | ⟨1, _⟩ => show win0_0.index t (1 : Fin 2) * 4096 + 1 * l.val = l.val; rw [e1]; omega

/-- Each parameter window's block is its whole array, at every block: the first weight matrix, -/
theorem w1_block (c : Dev nD) (t : Fin cfg0.N) :
    (iblk0 V c 1 t : Vec Ideal S4096x256 .f32) = (V c main_arg3 : S4096x256.Idx → EReal) := by
  obtain ⟨-, -, e0, e1, -⟩ := mlp_block_index t
  funext y
  unfold iblk0
  rw [View.read_apply]
  show V c main_arg3 _ = V c main_arg3 y
  congr 1
  funext a
  apply Fin.ext
  match a with
  | ⟨0, _⟩ => show win0_1.index t (0 : Fin 2) * 4096 + 1 * (y 0).val = (y 0).val; rw [e0]; omega
  | ⟨1, _⟩ => show win0_1.index t (1 : Fin 2) * 256 + 1 * (y 1).val = (y 1).val; rw [e1]; omega

/-- the first bias row, -/
theorem b1_block (c : Dev nD) (t : Fin cfg0.N) :
    (iblk0 V c 2 t : Vec Ideal S1x256 .f32) = (V c main_v4 : S1x256.Idx → EReal) := by
  obtain ⟨-, -, -, -, e0, e1, -⟩ := mlp_block_index t
  funext y
  unfold iblk0
  rw [View.read_apply]
  show V c main_v4 _ = V c main_v4 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- the second weight matrix, -/
theorem w2_block (c : Dev nD) (t : Fin cfg0.N) :
    (iblk0 V c 3 t : Vec Ideal S256x64 .f32) = (V c main_arg5 : S256x64.Idx → EReal) := by
  obtain ⟨-, -, -, -, -, -, e0, e1, -⟩ := mlp_block_index t
  funext y
  unfold iblk0
  rw [View.read_apply]
  show V c main_arg5 _ = V c main_arg5 y
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

/-- and the second bias row. -/
theorem b2_block (c : Dev nD) (t : Fin cfg0.N) :
    (iblk0 V c 4 t : Vec Ideal S1x64 .f32) = (V c main_v5 : S1x64.Idx → EReal) := by
  obtain ⟨-, -, -, -, -, -, -, -, e0, e1, -⟩ := mlp_block_index t
  funext y
  unfold iblk0
  rw [View.read_apply]
  show V c main_v5 _ = V c main_v5 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The perceptron of every feature row, as one array: what the region's output array ends holding. -/
abbrev itemRows (c : Dev nD) : S50000x64.Idx → EReal := fun idx =>
  Cert.Gcn.mlpRow (V c main_arg1) (V c main_arg3) (fun k => V c main_v4 (ix2 (0 : Fin 1) k)) (V c main_arg5)
    (fun k => V c main_v5 (ix2 (0 : Fin 1) k)) (idx 0) (idx 1)

/-- The perceptron reads one row of its first argument only: on a block `x` of 400 rows that are rows
    400·t … 400·t + 399 of an array `A`, its entry (p, q) is the perceptron of `A` at row 400·t + p — given that the
    block's stored values are the perceptron of the block (`hpay`). -/
theorem mlp_point
    (hpay : ∀ (x0 : Vec Ideal S400x4096 .f32) (x1 : Vec Ideal S4096x256 .f32) (x2 : Vec Ideal S1x256 .f32)
      (x3 : Vec Ideal S256x64 .f32) (x4 : Vec Ideal S1x64 .f32) (p : Fin 400) (q : Fin 64),
      k0_pay1 (F := Ideal) x0 x1 x2 x3 x4 (ix2 p q)
        = Cert.Gcn.mlpRow x0 x1 (fun k => x2 (ix2 (0 : Fin 1) k)) x3 (fun k => x4 (ix2 (0 : Fin 1) k)) p q)
    (x0 : Vec Ideal S400x4096 .f32) (x1 : Vec Ideal S4096x256 .f32) (x2 : Vec Ideal S1x256 .f32)
    (x3 : Vec Ideal S256x64 .f32) (x4 : Vec Ideal S1x64 .f32) (A : S50000x4096.Idx → EReal) (t : Nat)
    (hx : ∀ (p : Fin 400) (l : Fin 4096) (r : Fin 50000), r.val = 400 * t + p.val → x0 (ix2 p l) = A (ix2 r l))
    (j : S400x64.Idx) (i : S50000x64.Idx) (h0 : (i 0).val = 400 * t + (j 0).val) (h1 : i 1 = j 1) :
    k0_pay1 (F := Ideal) x0 x1 x2 x3 x4 j
      = Cert.Gcn.mlpRow A x1 (fun k => x2 (ix2 (0 : Fin 1) k)) x3 (fun k => x4 (ix2 (0 : Fin 1) k)) (i 0) (i 1) := by
  obtain ⟨p, q, rfl⟩ : ∃ p q, j = ix2 p q := ⟨j 0, j 1, eq_ix2 j⟩
  have hrow : ∀ l : Fin 4096, x0 (ix2 p l) = A (ix2 (i 0) l) := fun l => hx p l (i 0) h0
  rw [hpay, h1]
  unfold Cert.Gcn.mlpRow
  simp only [hrow]

/-- What block t writes back is block t of the perceptron of every feature row. -/
theorem items_flushed_of
    (hpay : ∀ (x0 : Vec Ideal S400x4096 .f32) (x1 : Vec Ideal S4096x256 .f32) (x2 : Vec Ideal S1x256 .f32)
      (x3 : Vec Ideal S256x64 .f32) (x4 : Vec Ideal S1x64 .f32) (p : Fin 400) (q : Fin 64),
      k0_pay1 (F := Ideal) x0 x1 x2 x3 x4 (ix2 p q)
        = Cert.Gcn.mlpRow x0 x1 (fun k => x2 (ix2 (0 : Fin 1) k)) x3 (fun k => x4 (ix2 (0 : Fin 1) k)) p q)
    (c : Dev nD) (t : Fin cfg0.N) :
    (dat0 V c).flushed 5 t = ((cfg0.win 5).blk t).view.read (Elt Ideal) (itemRows V c) := by
  show (cfg0.win 5).cut (grid0.coords t) ((dat0 V c).after 5 t) = _
  rw [after0_5]
  unfold out0_5
  rw [View.canon_unit_zero zero_offsets]
  simp only [View.ld_unit_zero (S := S400x4096) zero_offsets, View.ld_unit_zero (S := S4096x256) zero_offsets,
    View.ld_unit_zero (S := S1x256) zero_offsets, View.ld_unit_zero (S := S256x64) zero_offsets,
    View.ld_unit_zero (S := S1x64) zero_offsets]
  rw [w1_block, b1_block, w2_block, b2_block]
  obtain ⟨-, -, -, -, -, -, -, -, -, -, e0, e1⟩ := mlp_block_index t
  funext j
  show k0_pay1 (F := Ideal) (iblk0 V c 0 t) (V c main_arg3) (V c main_v4) (V c main_arg5) (V c main_v5) j
    = itemRows V c (((cfg0.win 5).blk t).view.emb j)
  exact mlp_point hpay (iblk0 V c 0 t) (V c main_arg3) (V c main_v4) (V c main_arg5) (V c main_v5) (V c main_arg1) t.val
    (fun p l r hr => features_block V c t p l r hr) j (((cfg0.win 5).blk t).view.emb j)
    (by show win0_5.index t (0 : Fin 2) * 400 + 1 * (j 0).val = 400 * t.val + (j 0).val; rw [e0]; omega)
    (by apply Fin.ext; show win0_5.index t (1 : Fin 2) * 64 + 1 * (j 1).val = (j 1).val; rw [e1]; omega)

/-- An index of the array is in block t iff each coordinate is in the block's range on its axis. -/
theorem mem_items_block (t : Fin cfg0.N) (i : S50000x64.Idx) :
    i ∈ ((cfg0.win 5).blk t).view.set ↔ ∀ a : Fin 2, win0_5.index t a * S400x64.size a ≤ (i a).val
      ∧ (i a).val < win0_5.index t a * S400x64.size a + S400x64.size a := by
  show i ∈ ((View.whole main_v6).slice (win0_5.rect t)).set ↔ _
  rw [View.set_slice_whole, Rect.mem_set_unit]
  exact Iff.rfl

/-- Row r lies in block r / 400: the 125 blocks tile the array. -/
theorem items_cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 125 := N_0
  have ht : (i 0).val / 400 < cfg0.N := by omega
  obtain ⟨-, -, -, -, -, -, -, -, -, -, e0, e1⟩ := mlp_block_index ⟨(i 0).val / 400, ht⟩
  refine ⟨⟨(i 0).val / 400, ht⟩, flush0_5 _, ?_⟩
  rw [mem_items_block]
  intro a
  match a with
  | ⟨0, _⟩ =>
    show win0_5.index ⟨(i 0).val / 400, ht⟩ (0 : Fin 2) * 400 ≤ (i 0).val
      ∧ (i 0).val < win0_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, ht⟩ (1 : Fin 2) * 64 ≤ (i 1).val
      ∧ (i 1).val < win0_5.index ⟨(i 0).val / 400, ht⟩ (1 : Fin 2) * 64 + 64
    rw [e1]; omega

/-- The output array after the region: the perceptron of every feature row — given that each block's stored values
    are the perceptron of the block. -/
theorem items_array_of
    (hpay : ∀ (x0 : Vec Ideal S400x4096 .f32) (x1 : Vec Ideal S4096x256 .f32) (x2 : Vec Ideal S1x256 .f32)
      (x3 : Vec Ideal S256x64 .f32) (x4 : Vec Ideal S1x64 .f32) (p : Fin 400) (q : Fin 64),
      k0_pay1 (F := Ideal) x0 x1 x2 x3 x4 (ix2 p q)
        = Cert.Gcn.mlpRow x0 x1 (fun k => x2 (ix2 (0 : Fin 1) k)) x3 (fun k => x4 (ix2 (0 : Fin 1) k)) p q)
    (c : Dev nD) :
    (dat0 V c).arrAt 5 cfg0.N = itemRows V c :=
  (dat0 V c).arrAt_eq_of_cover 5 (itemRows V c) (fun t _ => items_flushed_of V hpay c t) items_cover

end Cert.KernelIdeal.NodeValue

end
-- ==== Proof.NodesArray.lean ====
/-
  The normalised node table as one array.

  The second tiled region walks the 150000 stacked rows in 150 blocks of 1000 rows. At block t it leaves, in rows
  1000·t … 1000·t + 999 of its output array, each of the 1000 rows it was handed divided by the larger of its
  Euclidean norm and the floor word. The normalisation of a row reads that row only, so the normalised block row p is
  the normalised row 1000·t + p of the whole array; the 150 blocks tile the 150000 rows (row r lies in block
  r / 1000), so the output array ends as every stacked row normalised.
-/
import proofs.«132829_j42932493091126_1_alg».proof.Proof.Gen.KernelIdeal.Frame
import proofs.«132829_j42932493091126_1_alg».proof.Proof.RowFormulas
import Idealize.ShloMosaic.Lib.Pipeline.Value

noncomputable section

open scoped BigOperators

namespace Cert.KernelIdeal.NodeValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets (0, 0), spelt as the constant function. -/
theorem unit_zero_offsets : (![0, 0] : Fin 2 → Nat) = fun _ => 0 := funext fun a => by fin_cases a <;> rfl

/-- Where block t sits: the input window and the output window are both at block row t, block column 0. -/
theorem unit_block_index : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Entry (p, k) of the input block at t is entry (1000·t + p, k) of the stacked array. -/
theorem stacked_block (c : Dev nD) (t : Fin cfg1.N) (p : Fin 1000) (k : Fin 64) (r : Fin 150000)
    (hr : r.val = 1000 * t.val + p.val) :
    (iblk1 V c 0 t : Vec Ideal S1000x64 .f32) (ix2 p k) = (V c main_v7 : S150000x64.Idx → EReal) (ix2 r k) := by
  obtain ⟨e0, e1, -⟩ := unit_block_index t
  unfold iblk1
  rw [View.read_apply]
  show V c main_v7 _ = V c main_v7 _
  congr 1
  funext a
  apply Fin.ext
  match a with
  | ⟨0, _⟩ => show win1_0.index t (0 : Fin 2) * 1000 + 1 * p.val = r.val; rw [e0, hr]; omega
  | ⟨1, _⟩ => show win1_0.index t (1 : Fin 2) * 64 + 1 * k.val = k.val; rw [e1]; omega

/-- The normalisation reads one row only: on a block `x` of 1000 rows that are rows 1000·t … 1000·t + 999 of an
    array `A`, its entry (p, q) is the normalised row 1000·t + p of `A` at column q — given that the block's stored
    values are the normalised rows of the block (`hpay`). -/
theorem unit_point
    (hpay : ∀ (x0 : Vec Ideal S1000x64 .f32) (p : Fin 1000) (q : Fin 64),
      k1_pay1 (F := Ideal) x0 (ix2 p q) = Cert.Gcn.unitRow x0 p q)
    (x0 : Vec Ideal S1000x64 .f32) (A : S150000x64.Idx → EReal) (t : Nat)
    (hx : ∀ (p : Fin 1000) (k : Fin 64) (r : Fin 150000), r.val = 1000 * t + p.val → x0 (ix2 p k) = A (ix2 r k))
    (j : S1000x64.Idx) (i : S150000x64.Idx) (h0 : (i 0).val = 1000 * t + (j 0).val) (h1 : i 1 = j 1) :
    k1_pay1 (F := Ideal) x0 j = Cert.Gcn.unitRows A i := by
  obtain ⟨p, q, rfl⟩ : ∃ p q, j = ix2 p q := ⟨j 0, j 1, eq_ix2 j⟩
  have hrow : ∀ k : Fin 64, x0 (ix2 p k) = A (ix2 (i 0) k) := fun k => hx p k (i 0) h0
  rw [hpay]
  unfold Cert.Gcn.unitRows Cert.Gcn.unitRow
  rw [h1]
  simp only [hrow]

/-- What block t writes back is block t of the stacked array with every row normalised. -/
theorem nodes_flushed_of
    (hpay : ∀ (x0 : Vec Ideal S1000x64 .f32) (p : Fin 1000) (q : Fin 64),
      k1_pay1 (F := Ideal) x0 (ix2 p q) = Cert.Gcn.unitRow x0 p q)
    (c : Dev nD) (t : Fin cfg1.N) :
    (dat1 V c).flushed 1 t
      = ((cfg1.win 1).blk t).view.read (Elt Ideal) (Cert.Gcn.unitRows (V c main_v7 : S150000x64.Idx → EReal)) := by
  show (cfg1.win 1).cut (grid1.coords t) ((dat1 V c).after 1 t) = _
  rw [after1_1]
  unfold out1_1
  rw [View.canon_unit_zero unit_zero_offsets]
  simp only [View.ld_unit_zero (S := S1000x64) unit_zero_offsets]
  obtain ⟨-, -, e0, e1⟩ := unit_block_index t
  funext j
  show k1_pay1 (F := Ideal) (iblk1 V c 0 t) j
    = Cert.Gcn.unitRows (V c main_v7 : S150000x64.Idx → EReal) (((cfg1.win 1).blk t).view.emb j)
  exact unit_point hpay (iblk1 V c 0 t) (V c main_v7) t.val
    (fun p k r hr => stacked_block V c t p k r hr) j (((cfg1.win 1).blk t).view.emb j)
    (by show win1_1.index t (0 : Fin 2) * 1000 + 1 * (j 0).val = 1000 * t.val + (j 0).val; rw [e0]; omega)
    (by apply Fin.ext; show win1_1.index t (1 : Fin 2) * 64 + 1 * (j 1).val = (j 1).val; rw [e1]; omega)

/-- An index of the array is in block t iff each coordinate is in the block's range on its axis. -/
theorem mem_nodes_block (t : Fin cfg1.N) (i : S150000x64.Idx) :
    i ∈ ((cfg1.win 1).blk t).view.set ↔ ∀ a : Fin 2, win1_1.index t a * S1000x64.size a ≤ (i a).val
      ∧ (i a).val < win1_1.index t a * S1000x64.size a + S1000x64.size a := by
  show i ∈ ((View.whole main_v8).slice (win1_1.rect t)).set ↔ _
  rw [View.set_slice_whole, Rect.mem_set_unit]
  exact Iff.rfl

/-- Row r lies in block r / 1000: the 150 blocks tile the array. -/
theorem nodes_cover (i : S150000x64.Idx) :
    ∃ t : Fin cfg1.N, (cfg1.win 1).flush t = true ∧ i ∈ ((cfg1.win 1).blk t).view.set := by
  have hi0 : (i 0).val < 150000 := (i 0).isLt
  have hi1 : (i 1).val < 64 := (i 1).isLt
  have hN : cfg1.N = 150 := N_1
  have ht : (i 0).val / 1000 < cfg1.N := by omega
  obtain ⟨-, -, e0, e1⟩ := unit_block_index ⟨(i 0).val / 1000, ht⟩
  refine ⟨⟨(i 0).val / 1000, ht⟩, flush1_1 _, ?_⟩
  rw [mem_nodes_block]
  intro a
  match a with
  | ⟨0, _⟩ =>
    show win1_1.index ⟨(i 0).val / 1000, ht⟩ (0 : Fin 2) * 1000 ≤ (i 0).val
      ∧ (i 0).val < win1_1.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_1.index ⟨(i 0).val / 1000, ht⟩ (1 : Fin 2) * 64 ≤ (i 1).val
      ∧ (i 1).val < win1_1.index ⟨(i 0).val / 1000, ht⟩ (1 : Fin 2) * 64 + 64
    rw [e1]; omega

/-- The output array after the region: every row of the stacked array normalised — given that each block's stored
    values are the normalised rows of the block. -/
theorem nodes_array_of
    (hpay : ∀ (x0 : Vec Ideal S1000x64 .f32) (p : Fin 1000) (q : Fin 64),
      k1_pay1 (F := Ideal) x0 (ix2 p q) = Cert.Gcn.unitRow x0 p q)
    (c : Dev nD) :
    (dat1 V c).arrAt 1 cfg1.N = Cert.Gcn.unitRows (V c main_v7 : S150000x64.Idx → EReal) :=
  (dat1 V c).arrAt_eq_of_cover 1 (Cert.Gcn.unitRows (V c main_v7 : S150000x64.Idx → EReal))
    (fun t _ => nodes_flushed_of V hpay c t) nodes_cover

end Cert.KernelIdeal.NodeValue

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.BlockRows.lean ====
/-
  The two kernels' payloads read at an index, over the extended reals.

  The perceptron kernel computes, for a block of 400 feature rows, the product with the first weight matrix into a zero
  accumulator, adds the first bias row to every row, applies the leaky rectifier entry by entry, multiplies by the
  second weight matrix into a zero accumulator and adds the second bias row: entry (p, q) is the perceptron row formula.
  The changes of float format on the way are the identity on the extended reals.
  The normalisation kernel squares a block of 1000 rows, sums every row over its 64 lanes, takes the square root of the
  column of sums, bounds it below by the floor word, broadcasts the column over the lanes and divides: entry (p, q) is
  the unit row formula.
-/
import proofs.«132829_j42932493091126_1_alg».proof.Proof.Gen.KernelIdeal.Skeleton
import proofs.«132829_j42932493091126_1_alg».proof.Proof.RowFormulas
import proofs.«132829_j42932493091126_1_alg».proof.Proof.LibMatmulNN
import proofs.«132829_j42932493091126_1_alg».proof.Proof.LibColumns
import Idealize.ShloMosaic.Lib.ValueLayout

noncomputable section

open scoped BigOperators

namespace Cert.Gcn

open Idealize.ShloMosaic Idealize.ShloMosaic.ValueIdx
open Cert.KernelIdeal

/-- A bias row [1, n] cast to its own shape and broadcast over m rows reads, at (p, c), the row at column c. -/
theorem biasRow_apply {m n : ℕ} (b : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (p : Fin m) (c : Fin n) :
    broadcastTo ⟨2, ![m, n]⟩ (shapeCast ⟨2, ![1, n]⟩ b hc) hb (ix2 p c) = b (ix2 (0 : Fin 1) c) := by
  rw [shapeCast_self]
  exact broadcastTo_1b_ab_apply b hb p c

/-- The hidden layer of the block before the rectifier, at (p, k): the row of features against column k of the first
    weight matrix, plus the bias at k. -/
theorem hidden_block_apply (x0 : Vec Ideal S400x4096 .f32) (x1 : Vec Ideal S4096x256 .f32) (x2 : Vec Ideal S1x256 .f32)
    (h1 : FTy.bits .bf16 < FTy.bits .f32) (hc : S1x256.ShapeCasts S1x256) (hb : S1x256.Broadcasts S400x256)
    (p : Fin 400) (k : Fin 256) :
    addf (F := Ideal)
        (matmul (F := Ideal) dot_S400x4096_S4096x256_S400x256_1_0_0_1_n_n none (truncf .bf16 x0 h1) (truncf .bf16 x1 h1)
          (constant S400x256 .f32 0x00000000#32))
        (broadcastTo S400x256 (shapeCast S1x256 x2 hc) hb) (ix2 p k)
      = ∑ l : Fin 4096, x0 (ix2 p l) * x1 (ix2 l k) + x2 (ix2 (0 : Fin 1) k) := by
  refine congrArg₂ (· + ·) ?_ ?_
  · exact Cert.LibMatmulNN.matmul_nn_apply dot_S400x4096_S4096x256_S400x256_1_0_0_1_n_n rfl rfl rfl rfl rfl rfl none
      (truncf .bf16 x0 h1) (truncf .bf16 x1 h1) p k
  · exact biasRow_apply x2 hc hb p k

/-- The perceptron kernel's stored value at (p, q) is the perceptron row formula of the block. -/
theorem mlp_block_apply (x0 : Vec Ideal Cert.KernelIdeal.S400x4096 .f32) (x1 : Vec Ideal Cert.KernelIdeal.S4096x256 .f32)
    (x2 : Vec Ideal Cert.KernelIdeal.S1x256 .f32) (x3 : Vec Ideal Cert.KernelIdeal.S256x64 .f32)
    (x4 : Vec Ideal Cert.KernelIdeal.S1x64 .f32) (p : Fin 400) (q : Fin 64) :
    Cert.KernelIdeal.Gen.k0_pay1 (F := Ideal) x0 x1 x2 x3 x4 (ix2 p q)
      = Cert.Gcn.mlpRow x0 x1 (fun k => x2 (ix2 (0 : Fin 1) k)) x3 (fun k => x4 (ix2 (0 : Fin 1) k)) p q := by
  unfold Cert.KernelIdeal.Gen.k0_pay1 Cert.Gcn.mlpRow
  refine congrArg₂ (· + ·) ?_ ?_
  · refine (Cert.LibMatmulNN.matmul_nn_apply dot_S400x256_S256x64_S400x64_1_0_0_1_n_n rfl rfl rfl rfl rfl rfl none
      _ _ p q).trans ?_
    refine Finset.sum_congr rfl fun k _ => ?_
    refine congrArg₂ (· * ·) ?_ rfl
    -- the rectified hidden entry: compare, scale and select at the entry are the leaky rectifier of the entry
    exact congrArg leaky (hidden_block_apply x0 x1 x2 _ _ _ p k)
  · exact biasRow_apply x4 _ _ p q

/-- The normalisation kernel's stored value at (p, q) is the unit row formula of the block. -/
theorem unit_block_apply (x0 : Vec Ideal Cert.KernelIdeal.S1000x64 .f32) (p : Fin 1000) (q : Fin 64) :
    Cert.KernelIdeal.Gen.k1_pay1 (F := Ideal) x0 (ix2 p q) = Cert.Gcn.unitRow x0 p q := by
  unfold Cert.KernelIdeal.Gen.k1_pay1 Cert.Gcn.unitRow
  rw [shapeCast_self]
  refine congrArg₂ Ideal.div rfl ?_
  refine (Cert.LibColumns.broadcastTo_a1_ab_apply _ _ p q).trans ?_
  refine congrArg₂ max ?_ rfl
  refine congrArg Ideal.sqrt ?_
  refine (Cert.LibColumns.shapeCast_a_a1_apply _ _ p (0 : Fin 1)).trans ?_
  exact Cert.LibColumns.multiReduction_add_rows_apply _ _ _ _ _ p

end Cert.Gcn

end
-- ==== Proof.NodeArrays.lean ====
/-
  The two tiled regions' output arrays, whole.

  A block of the first region stores the two-layer perceptron of its 400 feature rows, and a block of the second stores
  its 1000 rows each divided by the larger of its Euclidean norm and the floor word. With these two block formulas the
  blocks-to-array statements give: the first region's output array is the perceptron of every feature row, and the
  second region's output array is every stacked row normalised.
-/
import proofs.«132829_j42932493091126_1_alg».proof.Proof.ItemsArray
import proofs.«132829_j42932493091126_1_alg».proof.Proof.NodesArray
import proofs.«132829_j42932493091126_1_alg».proof.Proof.BlockRows

noncomputable section

namespace Cert.KernelIdeal.NodeValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- After the first region its output array holds, at (r, q), the perceptron of feature row r at column q. -/
theorem items_array (c : Dev nD) : (dat0 V c).arrAt 5 cfg0.N = fun idx =>
    Cert.Gcn.mlpRow (V c main_arg1) (V c main_arg3) (fun k => V c main_v4 (ix2 (0 : Fin 1) k)) (V c main_arg5)
      (fun k => V c main_v5 (ix2 (0 : Fin 1) k)) (idx 0) (idx 1) :=
  items_array_of V Cert.Gcn.mlp_block_apply c

/-- After the second region its output array holds every row of the stacked array normalised. -/
theorem nodes_array (c : Dev nD) :
    (dat1 V c).arrAt 1 cfg1.N = Cert.Gcn.unitRows (V c main_v7 : S150000x64.Idx → EReal) :=
  nodes_array_of V Cert.Gcn.unit_block_apply c

end Cert.KernelIdeal.NodeValue

end
-- ==== Proof.StackRows.lean ====
/-
  The concatenation of the user rows and the item rows along the rows, read at an index: row r is user row r below
  100000 and item row r − 100000 from there on.
-/
import Idealize.ShloMosaic.Lib.Pipeline.Value
import proofs.«132829_j42932493091126_1_alg».proof.Proof.RowFormulas

noncomputable section

namespace Cert.Gcn

open Idealize.ShloMosaic Idealize.ShloMosaic.ValueIdx

/-- The two-piece concatenation along axis 0 is the stacked table: each index falls in exactly one piece. -/
theorem concat_rows (a2 : FVec Ideal ⟨2, ![100000, 64]⟩ .f32) (y : FVec Ideal ⟨2, ![50000, 64]⟩ .f32)
    (h : Shape.Concatenates [(⟨2, ![100000, 64]⟩ : Shape), ⟨2, ![50000, 64]⟩] ⟨2, ![150000, 64]⟩ 0) :
    concatenate ⟨2, ![150000, 64]⟩ 0 [⟨⟨2, ![100000, 64]⟩, a2⟩, ⟨⟨2, ![50000, 64]⟩, y⟩] h = stacked a2 y := by
  funext idx
  obtain ⟨p, q, rfl⟩ : ∃ (p : Fin 150000) (q : Fin 64), idx = ix2 p q := ⟨idx 0, idx 1, eq_ix2 idx⟩
  by_cases hp : p.val < 100000
  · -- a row of the first piece: the same coordinates
    have hs : stacked a2 y (ix2 p q) = a2 (ix2 ⟨p.val, hp⟩ q) := dif_pos hp
    rw [hs]
    refine concatenate_pair_apply_left (0 : Fin 2) a2 y h (ix2 p q) rfl (ix2 ⟨p.val, hp⟩ q) fun b => ?_
    match b with
    | ⟨0, _⟩ => rfl
    | ⟨1, _⟩ => rfl
  · -- a row of the second piece: the row coordinate less the first piece's extent
    have hlt : p.val - 100000 < 50000 := by have := p.isLt; omega
    have hs : stacked a2 y (ix2 p q) = y (ix2 ⟨p.val - 100000, hlt⟩ q) := dif_neg hp
    rw [hs]
    refine concatenate_pair_apply_right (t := ⟨2, ![150000, 64]⟩) (s₁ := ⟨2, ![100000, 64]⟩) (s₂ := ⟨2, ![50000, 64]⟩)
      (0 : Fin 2) a2 y h (ix2 p q) rfl rfl (ix2 ⟨p.val - 100000, hlt⟩ q) (fun b hb => ?_) ?_
    · -- the only axis other than the concatenated one is the column axis
      have h2 : b.val < 2 := b.isLt
      have h0 : b.val ≠ 0 := fun e => hb (Fin.ext e)
      have h1 : b = (1 : Fin 2) := Fin.ext (by show b.val = 1; omega)
      subst h1
      rfl
    · show (p.val - 100000) + 100000 = p.val
      omega

end Cert.Gcn

end
-- ==== Proof.KernelValue.lean ====
/-
  The idealized kernel program's result as one function of its arguments.

  The result buffer ends at the graph tail of the edge array's two rows and of the normalisation region's output
  array. That array is every row of the region's input normalised; the input is the user rows stacked on the
  perceptron region's output array; and that array is the two-layer perceptron of the feature rows, the two biases read
  through their leading unit axis. Put together: the graph tail of the normalised node table of the six float arguments.
-/
import proofs.«132829_j42932493091126_1_alg».proof.Proof.KernelGlue
import proofs.«132829_j42932493091126_1_alg».proof.Proof.KernelTail
import proofs.«132829_j42932493091126_1_alg».proof.Proof.NodeArrays
import proofs.«132829_j42932493091126_1_alg».proof.Proof.StackRows

set_option maxRecDepth 16384

noncomputable section

namespace Cert.KernelIdeal.NodeValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The perceptron region's output array is the item rows of the arguments. -/
theorem items_value (c : Dev nD) :
    (dat0 (V1 m ρ) c).arrAt 5 cfg0.N
      = Cert.Gcn.items (m ((c : Thread nD τ).loc main_arg1)) (m ((c : Thread nD τ).loc main_arg3))
          (m ((c : Thread nD τ).loc main_arg4)) (m ((c : Thread nD τ).loc main_arg5)) (m ((c : Thread nD τ).loc main_arg6)) := by
  rw [items_array (V1 m ρ) c, entry_arg1, entry_arg3, entry_arg5,
    show (fun k => V1 m ρ c main_v4 (ix2 (0 : Fin 1) k)) = fun k => m ((c : Thread nD τ).loc main_arg4) (ix1 k) from
      funext (entry_bias1 m ρ c),
    show (fun k => V1 m ρ c main_v5 (ix2 (0 : Fin 1) k)) = fun k => m ((c : Thread nD τ).loc main_arg6) (ix1 k) from
      funext (entry_bias2 m ρ c)]
  rfl

/-- The normalisation region's output array is the normalised node table of the arguments. -/
theorem nodes_value (c : Dev nD) :
    (dat1 (V3 m ρ) c).arrAt 1 cfg1.N
      = Cert.Gcn.nodes (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6)) := by
  rw [nodes_array (V3 m ρ) c, mid_table, items_value, Cert.Gcn.concat_rows]
  rfl

/-- The result buffer's final contents: the graph tail of the normalised node table. -/
theorem result_value (c : Dev nD) :
    W5 m ρ c (Proc.devRef .tc main_v88)
      = Cert.Gcn.tail (Cert.Gcn.edgeRow (m ((c : Thread nD τ).loc main_arg0)))
          (Cert.Gcn.edgeCol (m ((c : Thread nD τ).loc main_arg0)))
          (Cert.Gcn.nodes (m ((c : Thread nD τ).loc main_arg1)) (m ((c : Thread nD τ).loc main_arg2))
            (m ((c : Thread nD τ).loc main_arg3)) (m ((c : Thread nD τ).loc main_arg4))
            (m ((c : Thread nD τ).loc main_arg5)) (m ((c : Thread nD τ).loc main_arg6))) := by
  show StableHlo.after hostOps2 (W4 m ρ c) (Proc.devRef .tc main_v88) = _
  rw [tail_read, late_row, late_col, late_table, nodes_value]

end Cert.KernelIdeal.NodeValue

end
-- ==== Proof.RefRun.lean ====
/- The reference program's @main as a LIST of its 135 host operations — the three module-local functions
   (@leaky_relu, the @_where it calls, @norm) written out at their call sites over the calls' buffer records —
   and its run read back: every weakly fair execution terminates with the result buffer at the operations'
   fold over the launch contents and the seven arguments unchanged. -/
import proofs.«132829_j42932493091126_1_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's operations, in program order. Statement 10 (the call of @leaky_relu) is seven operations into the
    record `main_call0`: the zero, its broadcast, the comparison, the slope converted to its own type, its
    broadcast, the product, and @_where's select into `main_call0.call0`. Statement 16 (the call of @norm) is
    five into `main_call1`: the squares, the zero, the row sums, their column shape, the square root. -/
abbrev ops : List (HloOp τ sig (Elt F)) :=
  [ StableHlo.unary main_arg0 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg0 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.binary main_arg1 main_arg3 main_v4 ((fun l r => Host.dotGeneral dot_S50000x4096_S4096x256_S50000x256_1_0_0_1_n_n none l r) : (⟨S50000x4096, .f32⟩ : BufTy).Contents (Elt F) → (⟨S4096x256, .f32⟩ : BufTy).Contents (Elt F) → (⟨S50000x256, .f32⟩ : BufTy).Contents (Elt F)),
    StableHlo.unary main_arg4 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S50000x256 ![0, 1] bcast_S1x256_S50000x256_0_1 : (⟨S1x256, .f32⟩ : BufTy).Contents (Elt F) → (⟨S50000x256, .f32⟩ : BufTy).Contents (Elt F)),
    StableHlo.binary main_v4 main_v6 main_v7 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S50000x256 ![] bcast_S_S50000x256),
    StableHlo.TRef.binary (.of main_v7 : StableHlo.TRef sig ⟨S50000x256, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S50000x256 ![] bcast_S_S50000x256),
    StableHlo.TRef.binary main_call0.v3 (.of main_v7 : StableHlo.TRef sig ⟨S50000x256, .f32⟩) main_call0.v4 mulf,
    StableHlo.TRef.ternary main_call0.v1 (.of main_v7 : StableHlo.TRef sig ⟨S50000x256, .f32⟩) main_call0.v4 main_call0.call0.v0 select,
    StableHlo.binary main_v8 main_arg5 main_v9 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.unary main_arg6 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S50000x64 ![0, 1] bcast_S1x64_S50000x64_0_1 : (⟨S1x64, .f32⟩ : BufTy).Contents (Elt F) → (⟨S50000x64, .f32⟩ : BufTy).Contents (Elt F)),
    StableHlo.binary main_v9 main_v11 main_v12 (addf : (⟨S50000x64, .f32⟩ : BufTy).Contents (Elt F) → (⟨S50000x64, .f32⟩ : BufTy).Contents (Elt F) → (⟨S50000x64, .f32⟩ : BufTy).Contents (Elt F)),
    StableHlo.binary main_arg2 main_v12 main_v13 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.TRef.binary (.of main_v13 : StableHlo.TRef sig ⟨S150000x64, .f32⟩) (.of main_v13 : StableHlo.TRef sig ⟨S150000x64, .f32⟩) main_call1.v0 mulf,
    StableHlo.TRef.nullary main_call1.cst (constant S_ .f32 0x00000000#32),
    StableHlo.TRef.binary main_call1.v0 main_call1.cst main_call1.v1 (fun x v => Host.reduceAdd x v reducesTo_S150000x64_S150000_d1 h_S_),
    StableHlo.TRef.unary main_call1.v1 main_call1.v2 (broadcastInDim S150000x1 ![0] bcast_S150000_S150000x1_0),
    StableHlo.TRef.unary main_call1.v2 main_call1.v3 Host.sqrt,
    StableHlo.nullary main_cst_0 (constant S_ .f32 0x2B8CBCCC#32),
    StableHlo.unary main_cst_0 main_v15 (broadcastInDim S150000x1 ![] bcast_S_S150000x1 : (⟨S_, .f32⟩ : BufTy).Contents (Elt F) → (⟨S150000x1, .f32⟩ : BufTy).Contents (Elt F)),
    StableHlo.binary main_v14 main_v15 main_v16 (maximumf : (⟨S150000x1, .f32⟩ : BufTy).Contents (Elt F) → (⟨S150000x1, .f32⟩ : BufTy).Contents (Elt F) → (⟨S150000x1, .f32⟩ : BufTy).Contents (Elt F)),
    StableHlo.unary main_v16 main_v17 (broadcastInDim S150000x64 ![0, 1] bcast_S150000x1_S150000x64_0_1 : (⟨S150000x1, .f32⟩ : BufTy).Contents (Elt F) → (⟨S150000x64, .f32⟩ : BufTy).Contents (Elt F)),
    StableHlo.binary main_v13 main_v17 main_v18 (Host.divf : (⟨S150000x64, .f32⟩ : BufTy).Contents (Elt F) → (⟨S150000x64, .f32⟩ : BufTy).Contents (Elt F) → (⟨S150000x64, .f32⟩ : BufTy).Contents (Elt F)),
    StableHlo.nullary main_cst_1 (constant S_ .f32 0x00000000#32),
    StableHlo.unary main_cst_1 main_v19 (broadcastInDim S150000 ![] bcast_S_S150000 : (⟨S_, .f32⟩ : BufTy).Contents (Elt F) → (⟨S150000, .f32⟩ : BufTy).Contents (Elt F)),
    StableHlo.nullary main_cst_2 (constant S_ .f32 0x3F800000#32),
    StableHlo.unary main_cst_2 main_v20 (broadcastInDim S1200000 ![] bcast_S_S1200000 : (⟨S_, .f32⟩ : BufTy).Contents (Elt F) → (⟨S1200000, .f32⟩ : BufTy).Contents (Elt F)),
    StableHlo.nullary main_c (constantI S_ 32 0#32),
    StableHlo.unary main_c main_v21 (broadcastInDim S1200000 ![] bcast_S_S1200000 : (⟨S_, .i32⟩ : BufTy).Contents (Elt F) → (⟨S1200000, .i32⟩ : BufTy).Contents (Elt F)),
    StableHlo.binary main_v1 main_v21 main_v22 (cmpi .slt : (⟨S1200000, .i32⟩ : BufTy).Contents (Elt F) → (⟨S1200000, .i32⟩ : BufTy).Contents (Elt F) → (⟨S1200000, .i1⟩ : BufTy).Contents (Elt F)),
    StableHlo.nullary main_c_3 (constantI S_ 32 150000#32),
    StableHlo.unary main_c_3 main_v23 (broadcastInDim S1200000 ![] bcast_S_S1200000 : (⟨S_, .i32⟩ : BufTy).Contents (Elt F) → (⟨S1200000, .i32⟩ : BufTy).Contents (Elt F)),
    StableHlo.binary main_v1 main_v23 main_v24 (addi : (⟨S1200000, .i32⟩ : BufTy).Contents (Elt F) → (⟨S1200000, .i32⟩ : BufTy).Contents (Elt F) → (⟨S1200000, .i32⟩ : BufTy).Contents (Elt F)),
    StableHlo.ternary main_v22 main_v24 main_v1 main_v25 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v25 main_v26 (broadcastInDim S1200000x1 ![0] bcast_S1200000_S1200000x1_0 : (⟨S1200000, .i32⟩ : BufTy).Contents (Elt F) → (⟨S1200000x1, .i32⟩ : BufTy).Contents (Elt F)),
    StableHlo.ternary main_v19 main_v26 main_v20 main_v27 ((fun x i u => Host.scatterAdd scatter_S150000_S1200000x1_S1200000_n_0_0_1 x i u) : (⟨S150000, .f32⟩ : BufTy).Contents (Elt F) → (⟨S1200000x1, .i32⟩ : BufTy).Contents (Elt F) → (⟨S1200000, .f32⟩ : BufTy).Contents (Elt F) → (⟨S150000, .f32⟩ : BufTy).Contents (Elt F)),
    StableHlo.nullary main_cst_4 (constant S_ .f32 0xBF000000#32),
    StableHlo.unary main_cst_4 main_v28 (broadcastInDim S150000 ![] bcast_S_S150000 : (⟨S_, .f32⟩ : BufTy).Contents (Elt F) → (⟨S150000, .f32⟩ : BufTy).Contents (Elt F)),
    StableHlo.binary main_v27 main_v28 main_v29 (Host.powf : (⟨S150000, .f32⟩ : BufTy).Contents (Elt F) → (⟨S150000, .f32⟩ : BufTy).Contents (Elt F) → (⟨S150000, .f32⟩ : BufTy).Contents (Elt F)),
    StableHlo.nullary main_c_5 (constantI S_ 32 0#32),
    StableHlo.unary main_c_5 main_v30 (broadcastInDim S1200000 ![] bcast_S_S1200000 : (⟨S_, .i32⟩ : BufTy).Contents (Elt F) → (⟨S1200000, .i32⟩ : BufTy).Contents (Elt F)),
    StableHlo.binary main_v1 main_v30 main_v31 (cmpi .slt : (⟨S1200000, .i32⟩ : BufTy).Contents (Elt F) → (⟨S1200000, .i32⟩ : BufTy).Contents (Elt F) → (⟨S1200000, .i1⟩ : BufTy).Contents (Elt F)),
    StableHlo.nullary main_c_6 (constantI S_ 32 150000#32),
    StableHlo.unary main_c_6 main_v32 (broadcastInDim S1200000 ![] bcast_S_S1200000 : (⟨S_, .i32⟩ : BufTy).Contents (Elt F) → (⟨S1200000, .i32⟩ : BufTy).Contents (Elt F)),
    StableHlo.binary main_v1 main_v32 main_v33 (addi : (⟨S1200000, .i32⟩ : BufTy).Contents (Elt F) → (⟨S1200000, .i32⟩ : BufTy).Contents (Elt F) → (⟨S1200000, .i32⟩ : BufTy).Contents (Elt F)),
    StableHlo.ternary main_v31 main_v33 main_v1 main_v34 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v34 main_v35 (broadcastInDim S1200000x1 ![0] bcast_S1200000_S1200000x1_0 : (⟨S1200000, .i32⟩ : BufTy).Contents (Elt F) → (⟨S1200000x1, .i32⟩ : BufTy).Contents (Elt F)),
    StableHlo.binary main_v29 main_v35 main_v36 ((fun x i => Host.gather gather_S150000_S1200000x1_S1200000_n_0_n_n_0_1_1 x i) : (⟨S150000, .f32⟩ : BufTy).Contents (Elt F) → (⟨S1200000x1, .i32⟩ : BufTy).Contents (Elt F) → (⟨S1200000, .f32⟩ : BufTy).Contents (Elt F)),
    StableHlo.nullary main_c_7 (constantI S_ 32 0#32),
    StableHlo.unary main_c_7 main_v37 (broadcastInDim S1200000 ![] bcast_S_S1200000 : (⟨S_, .i32⟩ : BufTy).Contents (Elt F) → (⟨S1200000, .i32⟩ : BufTy).Contents (Elt F)),
    StableHlo.binary main_v3 main_v37 main_v38 (cmpi .slt : (⟨S1200000, .i32⟩ : BufTy).Contents (Elt F) → (⟨S1200000, .i32⟩ : BufTy).Contents (Elt F) → (⟨S1200000, .i1⟩ : BufTy).Contents (Elt F)),
    StableHlo.nullary main_c_8 (constantI S_ 32 150000#32),
    StableHlo.unary main_c_8 main_v39 (broadcastInDim S1200000 ![] bcast_S_S1200000 : (⟨S_, .i32⟩ : BufTy).Contents (Elt F) → (⟨S1200000, .i32⟩ : BufTy).Contents (Elt F)),
    StableHlo.binary main_v3 main_v39 main_v40 (addi : (⟨S1200000, .i32⟩ : BufTy).Contents (Elt F) → (⟨S1200000, .i32⟩ : BufTy).Contents (Elt F) → (⟨S1200000, .i32⟩ : BufTy).Contents (Elt F)),
    StableHlo.ternary main_v38 main_v40 main_v3 main_v41 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v41 main_v42 (broadcastInDim S1200000x1 ![0] bcast_S1200000_S1200000x1_0 : (⟨S1200000, .i32⟩ : BufTy).Contents (Elt F) → (⟨S1200000x1, .i32⟩ : BufTy).Contents (Elt F)),
    StableHlo.binary main_v29 main_v42 main_v43 ((fun x i => Host.gather gather_S150000_S1200000x1_S1200000_n_0_n_n_0_1_1 x i) : (⟨S150000, .f32⟩ : BufTy).Contents (Elt F) → (⟨S1200000x1, .i32⟩ : BufTy).Contents (Elt F) → (⟨S1200000, .f32⟩ : BufTy).Contents (Elt F)),
    StableHlo.binary main_v36 main_v43 main_v44 (mulf : (⟨S1200000, .f32⟩ : BufTy).Contents (Elt F) → (⟨S1200000, .f32⟩ : BufTy).Contents (Elt F) → (⟨S1200000, .f32⟩ : BufTy).Contents (Elt F)),
    StableHlo.unary main_v44 main_v45 (broadcastInDim S1200000x1 ![0] bcast_S1200000_S1200000x1_0 : (⟨S1200000, .f32⟩ : BufTy).Contents (Elt F) → (⟨S1200000x1, .f32⟩ : BufTy).Contents (Elt F)),
    StableHlo.nullary main_c_9 (constantI S_ 32 0#32),
    StableHlo.unary main_c_9 main_v46 (broadcastInDim S1200000 ![] bcast_S_S1200000 : (⟨S_, .i32⟩ : BufTy).Contents (Elt F) → (⟨S1200000, .i32⟩ : BufTy).Contents (Elt F)),
    StableHlo.binary main_v1 main_v46 main_v47 (cmpi .slt : (⟨S1200000, .i32⟩ : BufTy).Contents (Elt F) → (⟨S1200000, .i32⟩ : BufTy).Contents (Elt F) → (⟨S1200000, .i1⟩ : BufTy).Contents (Elt F)),
    StableHlo.nullary main_c_10 (constantI S_ 32 150000#32),
    StableHlo.unary main_c_10 main_v48 (broadcastInDim S1200000 ![] bcast_S_S1200000 : (⟨S_, .i32⟩ : BufTy).Contents (Elt F) → (⟨S1200000, .i32⟩ : BufTy).Contents (Elt F)),
    StableHlo.binary main_v1 main_v48 main_v49 (addi : (⟨S1200000, .i32⟩ : BufTy).Contents (Elt F) → (⟨S1200000, .i32⟩ : BufTy).Contents (Elt F) → (⟨S1200000, .i32⟩ : BufTy).Contents (Elt F)),
    StableHlo.ternary main_v47 main_v49 main_v1 main_v50 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v50 main_v51 (broadcastInDim S1200000x1 ![0] bcast_S1200000_S1200000x1_0 : (⟨S1200000, .i32⟩ : BufTy).Contents (Elt F) → (⟨S1200000x1, .i32⟩ : BufTy).Contents (Elt F)),
    StableHlo.binary main_v18 main_v51 main_v52 ((fun x i => Host.gather gather_S150000x64_S1200000x1_S1200000x64_1_0_n_n_0_1_164 x i) : (⟨S150000x64, .f32⟩ : BufTy).Contents (Elt F) → (⟨S1200000x1, .i32⟩ : BufTy).Contents (Elt F) → (⟨S1200000x64, .f32⟩ : BufTy).Contents (Elt F)),
    StableHlo.unary main_v45 main_v53 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v53 main_v52 main_v54 (mulf : (⟨S1200000x64, .f32⟩ : BufTy).Contents (Elt F) → (⟨S1200000x64, .f32⟩ : BufTy).Contents (Elt F) → (⟨S1200000x64, .f32⟩ : BufTy).Contents (Elt F)),
    StableHlo.nullary main_cst_11 (constant S_ .f32 0x00000000#32),
    StableHlo.unary main_cst_11 main_v55 (broadcastInDim S150000x64 ![] bcast_S_S150000x64 : (⟨S_, .f32⟩ : BufTy).Contents (Elt F) → (⟨S150000x64, .f32⟩ : BufTy).Contents (Elt F)),
    StableHlo.unary main_v3 main_v56 (broadcastInDim S1200000x1 ![0] bcast_S1200000_S1200000x1_0 : (⟨S1200000, .i32⟩ : BufTy).Contents (Elt F) → (⟨S1200000x1, .i32⟩ : BufTy).Contents (Elt F)),
    StableHlo.ternary main_v55 main_v56 main_v54 main_v57 ((fun x i u => Host.scatterAdd scatter_S150000x64_S1200000x1_S1200000x64_1_0_0_1 x i u) : (⟨S150000x64, .f32⟩ : BufTy).Contents (Elt F) → (⟨S1200000x1, .i32⟩ : BufTy).Contents (Elt F) → (⟨S1200000x64, .f32⟩ : BufTy).Contents (Elt F) → (⟨S150000x64, .f32⟩ : BufTy).Contents (Elt F)),
    StableHlo.nullary main_cst_12 (constant S_ .f32 0x00000000#32),
    StableHlo.unary main_cst_12 main_v58 (broadcastInDim S150000 ![] bcast_S_S150000 : (⟨S_, .f32⟩ : BufTy).Contents (Elt F) → (⟨S150000, .f32⟩ : BufTy).Contents (Elt F)),
    StableHlo.nullary main_cst_13 (constant S_ .f32 0x3F800000#32),
    StableHlo.unary main_cst_13 main_v59 (broadcastInDim S1200000 ![] bcast_S_S1200000 : (⟨S_, .f32⟩ : BufTy).Contents (Elt F) → (⟨S1200000, .f32⟩ : BufTy).Contents (Elt F)),
    StableHlo.nullary main_c_14 (constantI S_ 32 0#32),
    StableHlo.unary main_c_14 main_v60 (broadcastInDim S1200000 ![] bcast_S_S1200000 : (⟨S_, .i32⟩ : BufTy).Contents (Elt F) → (⟨S1200000, .i32⟩ : BufTy).Contents (Elt F)),
    StableHlo.binary main_v1 main_v60 main_v61 (cmpi .slt : (⟨S1200000, .i32⟩ : BufTy).Contents (Elt F) → (⟨S1200000, .i32⟩ : BufTy).Contents (Elt F) → (⟨S1200000, .i1⟩ : BufTy).Contents (Elt F)),
    StableHlo.nullary main_c_15 (constantI S_ 32 150000#32),
    StableHlo.unary main_c_15 main_v62 (broadcastInDim S1200000 ![] bcast_S_S1200000 : (⟨S_, .i32⟩ : BufTy).Contents (Elt F) → (⟨S1200000, .i32⟩ : BufTy).Contents (Elt F)),
    StableHlo.binary main_v1 main_v62 main_v63 (addi : (⟨S1200000, .i32⟩ : BufTy).Contents (Elt F) → (⟨S1200000, .i32⟩ : BufTy).Contents (Elt F) → (⟨S1200000, .i32⟩ : BufTy).Contents (Elt F)),
    StableHlo.ternary main_v61 main_v63 main_v1 main_v64 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v64 main_v65 (broadcastInDim S1200000x1 ![0] bcast_S1200000_S1200000x1_0 : (⟨S1200000, .i32⟩ : BufTy).Contents (Elt F) → (⟨S1200000x1, .i32⟩ : BufTy).Contents (Elt F)),
    StableHlo.ternary main_v58 main_v65 main_v59 main_v66 ((fun x i u => Host.scatterAdd scatter_S150000_S1200000x1_S1200000_n_0_0_1 x i u) : (⟨S150000, .f32⟩ : BufTy).Contents (Elt F) → (⟨S1200000x1, .i32⟩ : BufTy).Contents (Elt F) → (⟨S1200000, .f32⟩ : BufTy).Contents (Elt F) → (⟨S150000, .f32⟩ : BufTy).Contents (Elt F)),
    StableHlo.nullary main_cst_16 (constant S_ .f32 0xBF000000#32),
    StableHlo.unary main_cst_16 main_v67 (broadcastInDim S150000 ![] bcast_S_S150000 : (⟨S_, .f32⟩ : BufTy).Contents (Elt F) → (⟨S150000, .f32⟩ : BufTy).Contents (Elt F)),
    StableHlo.binary main_v66 main_v67 main_v68 (Host.powf : (⟨S150000, .f32⟩ : BufTy).Contents (Elt F) → (⟨S150000, .f32⟩ : BufTy).Contents (Elt F) → (⟨S150000, .f32⟩ : BufTy).Contents (Elt F)),
    StableHlo.nullary main_c_17 (constantI S_ 32 0#32),
    StableHlo.unary main_c_17 main_v69 (broadcastInDim S1200000 ![] bcast_S_S1200000 : (⟨S_, .i32⟩ : BufTy).Contents (Elt F) → (⟨S1200000, .i32⟩ : BufTy).Contents (Elt F)),
    StableHlo.binary main_v1 main_v69 main_v70 (cmpi .slt : (⟨S1200000, .i32⟩ : BufTy).Contents (Elt F) → (⟨S1200000, .i32⟩ : BufTy).Contents (Elt F) → (⟨S1200000, .i1⟩ : BufTy).Contents (Elt F)),
    StableHlo.nullary main_c_18 (constantI S_ 32 150000#32),
    StableHlo.unary main_c_18 main_v71 (broadcastInDim S1200000 ![] bcast_S_S1200000 : (⟨S_, .i32⟩ : BufTy).Contents (Elt F) → (⟨S1200000, .i32⟩ : BufTy).Contents (Elt F)),
    StableHlo.binary main_v1 main_v71 main_v72 (addi : (⟨S1200000, .i32⟩ : BufTy).Contents (Elt F) → (⟨S1200000, .i32⟩ : BufTy).Contents (Elt F) → (⟨S1200000, .i32⟩ : BufTy).Contents (Elt F)),
    StableHlo.ternary main_v70 main_v72 main_v1 main_v73 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v73 main_v74 (broadcastInDim S1200000x1 ![0] bcast_S1200000_S1200000x1_0 : (⟨S1200000, .i32⟩ : BufTy).Contents (Elt F) → (⟨S1200000x1, .i32⟩ : BufTy).Contents (Elt F)),
    StableHlo.binary main_v68 main_v74 main_v75 ((fun x i => Host.gather gather_S150000_S1200000x1_S1200000_n_0_n_n_0_1_1 x i) : (⟨S150000, .f32⟩ : BufTy).Contents (Elt F) → (⟨S1200000x1, .i32⟩ : BufTy).Contents (Elt F) → (⟨S1200000, .f32⟩ : BufTy).Contents (Elt F)),
    StableHlo.nullary main_c_19 (constantI S_ 32 0#32),
    StableHlo.unary main_c_19 main_v76 (broadcastInDim S1200000 ![] bcast_S_S1200000 : (⟨S_, .i32⟩ : BufTy).Contents (Elt F) → (⟨S1200000, .i32⟩ : BufTy).Contents (Elt F)),
    StableHlo.binary main_v3 main_v76 main_v77 (cmpi .slt : (⟨S1200000, .i32⟩ : BufTy).Contents (Elt F) → (⟨S1200000, .i32⟩ : BufTy).Contents (Elt F) → (⟨S1200000, .i1⟩ : BufTy).Contents (Elt F)),
    StableHlo.nullary main_c_20 (constantI S_ 32 150000#32),
    StableHlo.unary main_c_20 main_v78 (broadcastInDim S1200000 ![] bcast_S_S1200000 : (⟨S_, .i32⟩ : BufTy).Contents (Elt F) → (⟨S1200000, .i32⟩ : BufTy).Contents (Elt F)),
    StableHlo.binary main_v3 main_v78 main_v79 (addi : (⟨S1200000, .i32⟩ : BufTy).Contents (Elt F) → (⟨S1200000, .i32⟩ : BufTy).Contents (Elt F) → (⟨S1200000, .i32⟩ : BufTy).Contents (Elt F)),
    StableHlo.ternary main_v77 main_v79 main_v3 main_v80 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v80 main_v81 (broadcastInDim S1200000x1 ![0] bcast_S1200000_S1200000x1_0 : (⟨S1200000, .i32⟩ : BufTy).Contents (Elt F) → (⟨S1200000x1, .i32⟩ : BufTy).Contents (Elt F)),
    StableHlo.binary main_v68 main_v81 main_v82 ((fun x i => Host.gather gather_S150000_S1200000x1_S1200000_n_0_n_n_0_1_1 x i) : (⟨S150000, .f32⟩ : BufTy).Contents (Elt F) → (⟨S1200000x1, .i32⟩ : BufTy).Contents (Elt F) → (⟨S1200000, .f32⟩ : BufTy).Contents (Elt F)),
    StableHlo.binary main_v75 main_v82 main_v83 (mulf : (⟨S1200000, .f32⟩ : BufTy).Contents (Elt F) → (⟨S1200000, .f32⟩ : BufTy).Contents (Elt F) → (⟨S1200000, .f32⟩ : BufTy).Contents (Elt F)),
    StableHlo.unary main_v83 main_v84 (broadcastInDim S1200000x1 ![0] bcast_S1200000_S1200000x1_0 : (⟨S1200000, .f32⟩ : BufTy).Contents (Elt F) → (⟨S1200000x1, .f32⟩ : BufTy).Contents (Elt F)),
    StableHlo.nullary main_c_21 (constantI S_ 32 0#32),
    StableHlo.unary main_c_21 main_v85 (broadcastInDim S1200000 ![] bcast_S_S1200000 : (⟨S_, .i32⟩ : BufTy).Contents (Elt F) → (⟨S1200000, .i32⟩ : BufTy).Contents (Elt F)),
    StableHlo.binary main_v1 main_v85 main_v86 (cmpi .slt : (⟨S1200000, .i32⟩ : BufTy).Contents (Elt F) → (⟨S1200000, .i32⟩ : BufTy).Contents (Elt F) → (⟨S1200000, .i1⟩ : BufTy).Contents (Elt F)),
    StableHlo.nullary main_c_22 (constantI S_ 32 150000#32),
    StableHlo.unary main_c_22 main_v87 (broadcastInDim S1200000 ![] bcast_S_S1200000 : (⟨S_, .i32⟩ : BufTy).Contents (Elt F) → (⟨S1200000, .i32⟩ : BufTy).Contents (Elt F)),
    StableHlo.binary main_v1 main_v87 main_v88 (addi : (⟨S1200000, .i32⟩ : BufTy).Contents (Elt F) → (⟨S1200000, .i32⟩ : BufTy).Contents (Elt F) → (⟨S1200000, .i32⟩ : BufTy).Contents (Elt F)),
    StableHlo.ternary main_v86 main_v88 main_v1 main_v89 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v89 main_v90 (broadcastInDim S1200000x1 ![0] bcast_S1200000_S1200000x1_0 : (⟨S1200000, .i32⟩ : BufTy).Contents (Elt F) → (⟨S1200000x1, .i32⟩ : BufTy).Contents (Elt F)),
    StableHlo.binary main_v57 main_v90 main_v91 ((fun x i => Host.gather gather_S150000x64_S1200000x1_S1200000x64_1_0_n_n_0_1_164 x i) : (⟨S150000x64, .f32⟩ : BufTy).Contents (Elt F) → (⟨S1200000x1, .i32⟩ : BufTy).Contents (Elt F) → (⟨S1200000x64, .f32⟩ : BufTy).Contents (Elt F)),
    StableHlo.unary main_v84 main_v92 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v92 main_v91 main_v93 (mulf : (⟨S1200000x64, .f32⟩ : BufTy).Contents (Elt F) → (⟨S1200000x64, .f32⟩ : BufTy).Contents (Elt F) → (⟨S1200000x64, .f32⟩ : BufTy).Contents (Elt F)),
    StableHlo.nullary main_cst_23 (constant S_ .f32 0x00000000#32),
    StableHlo.unary main_cst_23 main_v94 (broadcastInDim S150000x64 ![] bcast_S_S150000x64 : (⟨S_, .f32⟩ : BufTy).Contents (Elt F) → (⟨S150000x64, .f32⟩ : BufTy).Contents (Elt F)),
    StableHlo.unary main_v3 main_v95 (broadcastInDim S1200000x1 ![0] bcast_S1200000_S1200000x1_0 : (⟨S1200000, .i32⟩ : BufTy).Contents (Elt F) → (⟨S1200000x1, .i32⟩ : BufTy).Contents (Elt F)),
    StableHlo.ternary main_v94 main_v95 main_v93 main_v96 ((fun x i u => Host.scatterAdd scatter_S150000x64_S1200000x1_S1200000x64_1_0_0_1 x i u) : (⟨S150000x64, .f32⟩ : BufTy).Contents (Elt F) → (⟨S1200000x1, .i32⟩ : BufTy).Contents (Elt F) → (⟨S1200000x64, .f32⟩ : BufTy).Contents (Elt F) → (⟨S150000x64, .f32⟩ : BufTy).Contents (Elt F)),
    StableHlo.binary main_v18 main_v57 main_v97 (addf : (⟨S150000x64, .f32⟩ : BufTy).Contents (Elt F) → (⟨S150000x64, .f32⟩ : BufTy).Contents (Elt F) → (⟨S150000x64, .f32⟩ : BufTy).Contents (Elt F)),
    StableHlo.binary main_v97 main_v96 main_v98 (addf : (⟨S150000x64, .f32⟩ : BufTy).Contents (Elt F) → (⟨S150000x64, .f32⟩ : BufTy).Contents (Elt F) → (⟨S150000x64, .f32⟩ : BufTy).Contents (Elt F)) ]

/-- @main is that straight line: its three windows, the functions' bodies at their calls and the records at
    their fields unfolded, both sides are one chain of `hlo` steps once sequencing is reassociated. -/
theorem main_eq (c : Dev nD) : main (F := F) c = seq ops := by
  simp only [main, main_part0, main_part1, main_part2, fn_leaky_relu.body, fn_where.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    unary_bufs_sub .., binary_bufs_sub .., binary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., nullary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., binary_bufs_sub .., binary_bufs_sub ..⟩

theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

theorem arg2_eq (V : Valuation τ sig (Elt F)) :
    after ops V (Proc.devRef .tc main_arg2) = V (Proc.devRef .tc main_arg2) := by
  after_results_simp

theorem arg3_eq (V : Valuation τ sig (Elt F)) :
    after ops V (Proc.devRef .tc main_arg3) = V (Proc.devRef .tc main_arg3) := by
  after_results_simp

theorem arg4_eq (V : Valuation τ sig (Elt F)) :
    after ops V (Proc.devRef .tc main_arg4) = V (Proc.devRef .tc main_arg4) := by
  after_results_simp

theorem arg5_eq (V : Valuation τ sig (Elt F)) :
    after ops V (Proc.devRef .tc main_arg5) = V (Proc.devRef .tc main_arg5) := by
  after_results_simp

theorem arg6_eq (V : Valuation τ sig (Elt F)) :
    after ops V (Proc.devRef .tc main_arg6) = V (Proc.devRef .tc main_arg6) := by
  after_results_simp

/-- On every device, for any float values, from any memory with zero counters: every weakly fair execution of
    @main terminates with the result buffer at the operations' fold over the launch contents and the seven
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = after ops (fun b => m (c, b)) (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v98,
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefValue

end
-- ==== Proof.RefTerm.lean ====
/-
  The reference's normalised node table as one host term of the six float arguments, over the extended reals.

  Each definition below is one stretch of the reference's host operations, in the order the reference performs them:
  the hidden layer (a matrix product plus a bias row broadcast over the rows), the leaky rectifier (compare with a
  broadcast zero, scale by a broadcast slope word, select), the item rows (a second matrix product plus bias), the
  user rows stacked on top of the item rows, and the row normalisation (divide by the broadcast of the larger of
  the square root of the row sums of squares and a floor word).
-/
import proofs.«132829_j42932493091126_1_alg».proof.Proof.Gen.ReferenceIdeal
import Idealize.ShloMosaic.PureOps.Ideal.Laws

noncomputable section

namespace Cert.ReferenceIdeal.RefValue

open Idealize.ShloMosaic Idealize.SL.Sem
open Cert.ReferenceIdeal Cert.ReferenceIdeal.Facts₀ Cert.ReferenceIdeal.Facts

/-- The hidden layer before the rectifier: features times the first weight matrix, plus the first bias row. -/
def hostHidden (a1 : FVec Ideal S50000x4096 .f32) (a3 : FVec Ideal S4096x256 .f32) (a4 : FVec Ideal S256 .f32) :
    FVec Ideal S50000x256 .f32 :=
  addf (F := Ideal) (Host.dotGeneral (F := Ideal) dot_S50000x4096_S4096x256_S50000x256_1_0_0_1_n_n none a1 a3)
    (broadcastInDim S50000x256 ![0, 1] bcast_S1x256_S50000x256_0_1 (broadcastInDim S1x256 ![1] bcast_S256_S1x256_1 a4))

/-- The leaky rectifier of every entry: the entry where it is at least zero, the slope word times it elsewhere. -/
def hostLeaky (h : FVec Ideal S50000x256 .f32) : FVec Ideal S50000x256 .f32 :=
  select (cmpf (F := Ideal) .oge h (broadcastInDim S50000x256 ![] bcast_S_S50000x256 (constant (F := Ideal) S_ .f32 0x00000000#32))) h
    (mulf (F := Ideal) (broadcastInDim S50000x256 ![] bcast_S_S50000x256 (id (constant (F := Ideal) S_ .f32 0x3C23D70A#32))) h)

/-- The item rows: the rectified hidden layer times the second weight matrix, plus the second bias row. -/
def hostItems (a1 : FVec Ideal S50000x4096 .f32) (a3 : FVec Ideal S4096x256 .f32) (a4 : FVec Ideal S256 .f32)
    (a5 : FVec Ideal S256x64 .f32) (a6 : FVec Ideal S64 .f32) : FVec Ideal S50000x64 .f32 :=
  addf (F := Ideal) (Host.dotGeneral (F := Ideal) dot_S50000x256_S256x64_S50000x64_1_0_0_1_n_n none (hostLeaky (hostHidden a1 a3 a4)) a5)
    (broadcastInDim S50000x64 ![0, 1] bcast_S1x64_S50000x64_0_1 (broadcastInDim S1x64 ![1] bcast_S64_S1x64_1 a6))

/-- The user rows on top of the item rows. -/
def hostStacked (a2 : FVec Ideal S100000x64 .f32) (y : FVec Ideal S50000x64 .f32) : FVec Ideal S150000x64 .f32 :=
  concatenate S150000x64 0 [⟨S100000x64, a2⟩, ⟨S50000x64, y⟩] concatenates_S100000x64_S50000x64_S150000x64_d0

/-- Every row divided by the larger of its Euclidean norm and the floor word. -/
def hostUnit (z : FVec Ideal S150000x64 .f32) : FVec Ideal S150000x64 .f32 :=
  Host.divf (F := Ideal) z
    (broadcastInDim S150000x64 ![0, 1] bcast_S150000x1_S150000x64_0_1
      (maximumf (F := Ideal)
        (Host.sqrt (F := Ideal)
          (broadcastInDim S150000x1 ![0] bcast_S150000_S150000x1_0
            (Host.reduceAdd (F := Ideal) (mulf (F := Ideal) z z) (constant (F := Ideal) S_ .f32 0x00000000#32)
              reducesTo_S150000x64_S150000_d1 h_S_)))
        (broadcastInDim S150000x1 ![] bcast_S_S150000x1 (constant (F := Ideal) S_ .f32 0x2B8CBCCC#32))))

/-- The normalised node table as one function of the six float arguments. -/
def hostNodes (a1 : FVec Ideal S50000x4096 .f32) (a2 : FVec Ideal S100000x64 .f32) (a3 : FVec Ideal S4096x256 .f32)
    (a4 : FVec Ideal S256 .f32) (a5 : FVec Ideal S256x64 .f32) (a6 : FVec Ideal S64 .f32) : FVec Ideal S150000x64 .f32 :=
  hostUnit (hostStacked a2 (hostItems a1 a3 a4 a5 a6))

end Cert.ReferenceIdeal.RefValue

end
-- ==== Proof.RefRead.lean ====
/- The reference's result buffer read as the shared graph tail applied to the reference's node table.

   The operation list is cut at four buffers — the item rows (%12), the stacked rows (%13), the normalised node
   table (%18) and the first convolution (%57) — and the fold over a concatenation is the composition of the
   folds. The first stretch leaves the two edge rows and the item rows, the second stacks the user rows on them,
   the third normalises whatever table it is handed, the fourth is one convolution of whatever table it is
   handed, the fifth the second convolution and the two sums. Each stretch's fold at its result buffer is the
   operations' composed term, which is the named function by unfolding. -/
import proofs.«132829_j42932493091126_1_alg».proof.Proof.RefRun
import proofs.«132829_j42932493091126_1_alg».proof.Proof.RefTerm
import proofs.«132829_j42932493091126_1_alg».proof.Proof.GraphTail

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

/-- The fold over a concatenation is the composition of the folds. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

section Lists

variable {F : FTy → Type} [FloatOps F]

/-- Operations 1 … 20: the two edge rows and the item rows (%0 … %12). -/
abbrev opsA1 : List (HloOp τ sig (Elt F)) :=
  [ StableHlo.unary main_arg0 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg0 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.binary main_arg1 main_arg3 main_v4 ((fun l r => Host.dotGeneral dot_S50000x4096_S4096x256_S50000x256_1_0_0_1_n_n none l r) : (⟨S50000x4096, .f32⟩ : BufTy).Contents (Elt F) → (⟨S4096x256, .f32⟩ : BufTy).Contents (Elt F) → (⟨S50000x256, .f32⟩ : BufTy).Contents (Elt F)),
    StableHlo.unary main_arg4 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S50000x256 ![0, 1] bcast_S1x256_S50000x256_0_1 : (⟨S1x256, .f32⟩ : BufTy).Contents (Elt F) → (⟨S50000x256, .f32⟩ : BufTy).Contents (Elt F)),
    StableHlo.binary main_v4 main_v6 main_v7 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S50000x256 ![] bcast_S_S50000x256),
    StableHlo.TRef.binary (.of main_v7 : StableHlo.TRef sig ⟨S50000x256, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S50000x256 ![] bcast_S_S50000x256),
    StableHlo.TRef.binary main_call0.v3 (.of main_v7 : StableHlo.TRef sig ⟨S50000x256, .f32⟩) main_call0.v4 mulf,
    StableHlo.TRef.ternary main_call0.v1 (.of main_v7 : StableHlo.TRef sig ⟨S50000x256, .f32⟩) main_call0.v4 main_call0.call0.v0 select,
    StableHlo.binary main_v8 main_arg5 main_v9 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.unary main_arg6 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S50000x64 ![0, 1] bcast_S1x64_S50000x64_0_1 : (⟨S1x64, .f32⟩ : BufTy).Contents (Elt F) → (⟨S50000x64, .f32⟩ : BufTy).Contents (Elt F)),
    StableHlo.binary main_v9 main_v11 main_v12 (addf : (⟨S50000x64, .f32⟩ : BufTy).Contents (Elt F) → (⟨S50000x64, .f32⟩ : BufTy).Contents (Elt F) → (⟨S50000x64, .f32⟩ : BufTy).Contents (Elt F)) ]

/-- Operation 21: the user rows on top of the item rows (%13). -/
abbrev opsA2 : List (HloOp τ sig (Elt F)) :=
  [ StableHlo.binary main_arg2 main_v12 main_v13 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) ]

/-- Operations 22 … 31: the row normalisation (@norm's five, then %cst_0 … %18). -/
abbrev opsA3 : List (HloOp τ sig (Elt F)) :=
  [ StableHlo.TRef.binary (.of main_v13 : StableHlo.TRef sig ⟨S150000x64, .f32⟩) (.of main_v13 : StableHlo.TRef sig ⟨S150000x64, .f32⟩) main_call1.v0 mulf,
    StableHlo.TRef.nullary main_call1.cst (constant S_ .f32 0x00000000#32),
    StableHlo.TRef.binary main_call1.v0 main_call1.cst main_call1.v1 (fun x v => Host.reduceAdd x v reducesTo_S150000x64_S150000_d1 h_S_),
    StableHlo.TRef.unary main_call1.v1 main_call1.v2 (broadcastInDim S150000x1 ![0] bcast_S150000_S150000x1_0),
    StableHlo.TRef.unary main_call1.v2 main_call1.v3 Host.sqrt,
    StableHlo.nullary main_cst_0 (constant S_ .f32 0x2B8CBCCC#32),
    StableHlo.unary main_cst_0 main_v15 (broadcastInDim S150000x1 ![] bcast_S_S150000x1 : (⟨S_, .f32⟩ : BufTy).Contents (Elt F) → (⟨S150000x1, .f32⟩ : BufTy).Contents (Elt F)),
    StableHlo.binary main_v14 main_v15 main_v16 (maximumf : (⟨S150000x1, .f32⟩ : BufTy).Contents (Elt F) → (⟨S150000x1, .f32⟩ : BufTy).Contents (Elt F) → (⟨S150000x1, .f32⟩ : BufTy).Contents (Elt F)),
    StableHlo.unary main_v16 main_v17 (broadcastInDim S150000x64 ![0, 1] bcast_S150000x1_S150000x64_0_1 : (⟨S150000x1, .f32⟩ : BufTy).Contents (Elt F) → (⟨S150000x64, .f32⟩ : BufTy).Contents (Elt F)),
    StableHlo.binary main_v13 main_v17 main_v18 (Host.divf : (⟨S150000x64, .f32⟩ : BufTy).Contents (Elt F) → (⟨S150000x64, .f32⟩ : BufTy).Contents (Elt F) → (⟨S150000x64, .f32⟩ : BufTy).Contents (Elt F)) ]

/-- Operations 32 … 82: the first convolution (%cst_1 … %57). -/
abbrev opsB : List (HloOp τ sig (Elt F)) :=
  [ StableHlo.nullary main_cst_1 (constant S_ .f32 0x00000000#32),
    StableHlo.unary main_cst_1 main_v19 (broadcastInDim S150000 ![] bcast_S_S150000 : (⟨S_, .f32⟩ : BufTy).Contents (Elt F) → (⟨S150000, .f32⟩ : BufTy).Contents (Elt F)),
    StableHlo.nullary main_cst_2 (constant S_ .f32 0x3F800000#32),
    StableHlo.unary main_cst_2 main_v20 (broadcastInDim S1200000 ![] bcast_S_S1200000 : (⟨S_, .f32⟩ : BufTy).Contents (Elt F) → (⟨S1200000, .f32⟩ : BufTy).Contents (Elt F)),
    StableHlo.nullary main_c (constantI S_ 32 0#32),
    StableHlo.unary main_c main_v21 (broadcastInDim S1200000 ![] bcast_S_S1200000 : (⟨S_, .i32⟩ : BufTy).Contents (Elt F) → (⟨S1200000, .i32⟩ : BufTy).Contents (Elt F)),
    StableHlo.binary main_v1 main_v21 main_v22 (cmpi .slt : (⟨S1200000, .i32⟩ : BufTy).Contents (Elt F) → (⟨S1200000, .i32⟩ : BufTy).Contents (Elt F) → (⟨S1200000, .i1⟩ : BufTy).Contents (Elt F)),
    StableHlo.nullary main_c_3 (constantI S_ 32 150000#32),
    StableHlo.unary main_c_3 main_v23 (broadcastInDim S1200000 ![] bcast_S_S1200000 : (⟨S_, .i32⟩ : BufTy).Contents (Elt F) → (⟨S1200000, .i32⟩ : BufTy).Contents (Elt F)),
    StableHlo.binary main_v1 main_v23 main_v24 (addi : (⟨S1200000, .i32⟩ : BufTy).Contents (Elt F) → (⟨S1200000, .i32⟩ : BufTy).Contents (Elt F) → (⟨S1200000, .i32⟩ : BufTy).Contents (Elt F)),
    StableHlo.ternary main_v22 main_v24 main_v1 main_v25 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v25 main_v26 (broadcastInDim S1200000x1 ![0] bcast_S1200000_S1200000x1_0 : (⟨S1200000, .i32⟩ : BufTy).Contents (Elt F) → (⟨S1200000x1, .i32⟩ : BufTy).Contents (Elt F)),
    StableHlo.ternary main_v19 main_v26 main_v20 main_v27 ((fun x i u => Host.scatterAdd scatter_S150000_S1200000x1_S1200000_n_0_0_1 x i u) : (⟨S150000, .f32⟩ : BufTy).Contents (Elt F) → (⟨S1200000x1, .i32⟩ : BufTy).Contents (Elt F) → (⟨S1200000, .f32⟩ : BufTy).Contents (Elt F) → (⟨S150000, .f32⟩ : BufTy).Contents (Elt F)),
    StableHlo.nullary main_cst_4 (constant S_ .f32 0xBF000000#32),
    StableHlo.unary main_cst_4 main_v28 (broadcastInDim S150000 ![] bcast_S_S150000 : (⟨S_, .f32⟩ : BufTy).Contents (Elt F) → (⟨S150000, .f32⟩ : BufTy).Contents (Elt F)),
    StableHlo.binary main_v27 main_v28 main_v29 (Host.powf : (⟨S150000, .f32⟩ : BufTy).Contents (Elt F) → (⟨S150000, .f32⟩ : BufTy).Contents (Elt F) → (⟨S150000, .f32⟩ : BufTy).Contents (Elt F)),
    StableHlo.nullary main_c_5 (constantI S_ 32 0#32),
    StableHlo.unary main_c_5 main_v30 (broadcastInDim S1200000 ![] bcast_S_S1200000 : (⟨S_, .i32⟩ : BufTy).Contents (Elt F) → (⟨S1200000, .i32⟩ : BufTy).Contents (Elt F)),
    StableHlo.binary main_v1 main_v30 main_v31 (cmpi .slt : (⟨S1200000, .i32⟩ : BufTy).Contents (Elt F) → (⟨S1200000, .i32⟩ : BufTy).Contents (Elt F) → (⟨S1200000, .i1⟩ : BufTy).Contents (Elt F)),
    StableHlo.nullary main_c_6 (constantI S_ 32 150000#32),
    StableHlo.unary main_c_6 main_v32 (broadcastInDim S1200000 ![] bcast_S_S1200000 : (⟨S_, .i32⟩ : BufTy).Contents (Elt F) → (⟨S1200000, .i32⟩ : BufTy).Contents (Elt F)),
    StableHlo.binary main_v1 main_v32 main_v33 (addi : (⟨S1200000, .i32⟩ : BufTy).Contents (Elt F) → (⟨S1200000, .i32⟩ : BufTy).Contents (Elt F) → (⟨S1200000, .i32⟩ : BufTy).Contents (Elt F)),
    StableHlo.ternary main_v31 main_v33 main_v1 main_v34 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v34 main_v35 (broadcastInDim S1200000x1 ![0] bcast_S1200000_S1200000x1_0 : (⟨S1200000, .i32⟩ : BufTy).Contents (Elt F) → (⟨S1200000x1, .i32⟩ : BufTy).Contents (Elt F)),
    StableHlo.binary main_v29 main_v35 main_v36 ((fun x i => Host.gather gather_S150000_S1200000x1_S1200000_n_0_n_n_0_1_1 x i) : (⟨S150000, .f32⟩ : BufTy).Contents (Elt F) → (⟨S1200000x1, .i32⟩ : BufTy).Contents (Elt F) → (⟨S1200000, .f32⟩ : BufTy).Contents (Elt F)),
    StableHlo.nullary main_c_7 (constantI S_ 32 0#32),
    StableHlo.unary main_c_7 main_v37 (broadcastInDim S1200000 ![] bcast_S_S1200000 : (⟨S_, .i32⟩ : BufTy).Contents (Elt F) → (⟨S1200000, .i32⟩ : BufTy).Contents (Elt F)),
    StableHlo.binary main_v3 main_v37 main_v38 (cmpi .slt : (⟨S1200000, .i32⟩ : BufTy).Contents (Elt F) → (⟨S1200000, .i32⟩ : BufTy).Contents (Elt F) → (⟨S1200000, .i1⟩ : BufTy).Contents (Elt F)),
    StableHlo.nullary main_c_8 (constantI S_ 32 150000#32),
    StableHlo.unary main_c_8 main_v39 (broadcastInDim S1200000 ![] bcast_S_S1200000 : (⟨S_, .i32⟩ : BufTy).Contents (Elt F) → (⟨S1200000, .i32⟩ : BufTy).Contents (Elt F)),
    StableHlo.binary main_v3 main_v39 main_v40 (addi : (⟨S1200000, .i32⟩ : BufTy).Contents (Elt F) → (⟨S1200000, .i32⟩ : BufTy).Contents (Elt F) → (⟨S1200000, .i32⟩ : BufTy).Contents (Elt F)),
    StableHlo.ternary main_v38 main_v40 main_v3 main_v41 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v41 main_v42 (broadcastInDim S1200000x1 ![0] bcast_S1200000_S1200000x1_0 : (⟨S1200000, .i32⟩ : BufTy).Contents (Elt F) → (⟨S1200000x1, .i32⟩ : BufTy).Contents (Elt F)),
    StableHlo.binary main_v29 main_v42 main_v43 ((fun x i => Host.gather gather_S150000_S1200000x1_S1200000_n_0_n_n_0_1_1 x i) : (⟨S150000, .f32⟩ : BufTy).Contents (Elt F) → (⟨S1200000x1, .i32⟩ : BufTy).Contents (Elt F) → (⟨S1200000, .f32⟩ : BufTy).Contents (Elt F)),
    StableHlo.binary main_v36 main_v43 main_v44 (mulf : (⟨S1200000, .f32⟩ : BufTy).Contents (Elt F) → (⟨S1200000, .f32⟩ : BufTy).Contents (Elt F) → (⟨S1200000, .f32⟩ : BufTy).Contents (Elt F)),
    StableHlo.unary main_v44 main_v45 (broadcastInDim S1200000x1 ![0] bcast_S1200000_S1200000x1_0 : (⟨S1200000, .f32⟩ : BufTy).Contents (Elt F) → (⟨S1200000x1, .f32⟩ : BufTy).Contents (Elt F)),
    StableHlo.nullary main_c_9 (constantI S_ 32 0#32),
    StableHlo.unary main_c_9 main_v46 (broadcastInDim S1200000 ![] bcast_S_S1200000 : (⟨S_, .i32⟩ : BufTy).Contents (Elt F) → (⟨S1200000, .i32⟩ : BufTy).Contents (Elt F)),
    StableHlo.binary main_v1 main_v46 main_v47 (cmpi .slt : (⟨S1200000, .i32⟩ : BufTy).Contents (Elt F) → (⟨S1200000, .i32⟩ : BufTy).Contents (Elt F) → (⟨S1200000, .i1⟩ : BufTy).Contents (Elt F)),
    StableHlo.nullary main_c_10 (constantI S_ 32 150000#32),
    StableHlo.unary main_c_10 main_v48 (broadcastInDim S1200000 ![] bcast_S_S1200000 : (⟨S_, .i32⟩ : BufTy).Contents (Elt F) → (⟨S1200000, .i32⟩ : BufTy).Contents (Elt F)),
    StableHlo.binary main_v1 main_v48 main_v49 (addi : (⟨S1200000, .i32⟩ : BufTy).Contents (Elt F) → (⟨S1200000, .i32⟩ : BufTy).Contents (Elt F) → (⟨S1200000, .i32⟩ : BufTy).Contents (Elt F)),
    StableHlo.ternary main_v47 main_v49 main_v1 main_v50 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v50 main_v51 (broadcastInDim S1200000x1 ![0] bcast_S1200000_S1200000x1_0 : (⟨S1200000, .i32⟩ : BufTy).Contents (Elt F) → (⟨S1200000x1, .i32⟩ : BufTy).Contents (Elt F)),
    StableHlo.binary main_v18 main_v51 main_v52 ((fun x i => Host.gather gather_S150000x64_S1200000x1_S1200000x64_1_0_n_n_0_1_164 x i) : (⟨S150000x64, .f32⟩ : BufTy).Contents (Elt F) → (⟨S1200000x1, .i32⟩ : BufTy).Contents (Elt F) → (⟨S1200000x64, .f32⟩ : BufTy).Contents (Elt F)),
    StableHlo.unary main_v45 main_v53 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v53 main_v52 main_v54 (mulf : (⟨S1200000x64, .f32⟩ : BufTy).Contents (Elt F) → (⟨S1200000x64, .f32⟩ : BufTy).Contents (Elt F) → (⟨S1200000x64, .f32⟩ : BufTy).Contents (Elt F)),
    StableHlo.nullary main_cst_11 (constant S_ .f32 0x00000000#32),
    StableHlo.unary main_cst_11 main_v55 (broadcastInDim S150000x64 ![] bcast_S_S150000x64 : (⟨S_, .f32⟩ : BufTy).Contents (Elt F) → (⟨S150000x64, .f32⟩ : BufTy).Contents (Elt F)),
    StableHlo.unary main_v3 main_v56 (broadcastInDim S1200000x1 ![0] bcast_S1200000_S1200000x1_0 : (⟨S1200000, .i32⟩ : BufTy).Contents (Elt F) → (⟨S1200000x1, .i32⟩ : BufTy).Contents (Elt F)),
    StableHlo.ternary main_v55 main_v56 main_v54 main_v57 ((fun x i u => Host.scatterAdd scatter_S150000x64_S1200000x1_S1200000x64_1_0_0_1 x i u) : (⟨S150000x64, .f32⟩ : BufTy).Contents (Elt F) → (⟨S1200000x1, .i32⟩ : BufTy).Contents (Elt F) → (⟨S1200000x64, .f32⟩ : BufTy).Contents (Elt F) → (⟨S150000x64, .f32⟩ : BufTy).Contents (Elt F)) ]

/-- Operations 83 … 135: the second convolution and the two sums (%cst_12 … %98). -/
abbrev opsC : List (HloOp τ sig (Elt F)) :=
  [ StableHlo.nullary main_cst_12 (constant S_ .f32 0x00000000#32),
    StableHlo.unary main_cst_12 main_v58 (broadcastInDim S150000 ![] bcast_S_S150000 : (⟨S_, .f32⟩ : BufTy).Contents (Elt F) → (⟨S150000, .f32⟩ : BufTy).Contents (Elt F)),
    StableHlo.nullary main_cst_13 (constant S_ .f32 0x3F800000#32),
    StableHlo.unary main_cst_13 main_v59 (broadcastInDim S1200000 ![] bcast_S_S1200000 : (⟨S_, .f32⟩ : BufTy).Contents (Elt F) → (⟨S1200000, .f32⟩ : BufTy).Contents (Elt F)),
    StableHlo.nullary main_c_14 (constantI S_ 32 0#32),
    StableHlo.unary main_c_14 main_v60 (broadcastInDim S1200000 ![] bcast_S_S1200000 : (⟨S_, .i32⟩ : BufTy).Contents (Elt F) → (⟨S1200000, .i32⟩ : BufTy).Contents (Elt F)),
    StableHlo.binary main_v1 main_v60 main_v61 (cmpi .slt : (⟨S1200000, .i32⟩ : BufTy).Contents (Elt F) → (⟨S1200000, .i32⟩ : BufTy).Contents (Elt F) → (⟨S1200000, .i1⟩ : BufTy).Contents (Elt F)),
    StableHlo.nullary main_c_15 (constantI S_ 32 150000#32),
    StableHlo.unary main_c_15 main_v62 (broadcastInDim S1200000 ![] bcast_S_S1200000 : (⟨S_, .i32⟩ : BufTy).Contents (Elt F) → (⟨S1200000, .i32⟩ : BufTy).Contents (Elt F)),
    StableHlo.binary main_v1 main_v62 main_v63 (addi : (⟨S1200000, .i32⟩ : BufTy).Contents (Elt F) → (⟨S1200000, .i32⟩ : BufTy).Contents (Elt F) → (⟨S1200000, .i32⟩ : BufTy).Contents (Elt F)),
    StableHlo.ternary main_v61 main_v63 main_v1 main_v64 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v64 main_v65 (broadcastInDim S1200000x1 ![0] bcast_S1200000_S1200000x1_0 : (⟨S1200000, .i32⟩ : BufTy).Contents (Elt F) → (⟨S1200000x1, .i32⟩ : BufTy).Contents (Elt F)),
    StableHlo.ternary main_v58 main_v65 main_v59 main_v66 ((fun x i u => Host.scatterAdd scatter_S150000_S1200000x1_S1200000_n_0_0_1 x i u) : (⟨S150000, .f32⟩ : BufTy).Contents (Elt F) → (⟨S1200000x1, .i32⟩ : BufTy).Contents (Elt F) → (⟨S1200000, .f32⟩ : BufTy).Contents (Elt F) → (⟨S150000, .f32⟩ : BufTy).Contents (Elt F)),
    StableHlo.nullary main_cst_16 (constant S_ .f32 0xBF000000#32),
    StableHlo.unary main_cst_16 main_v67 (broadcastInDim S150000 ![] bcast_S_S150000 : (⟨S_, .f32⟩ : BufTy).Contents (Elt F) → (⟨S150000, .f32⟩ : BufTy).Contents (Elt F)),
    StableHlo.binary main_v66 main_v67 main_v68 (Host.powf : (⟨S150000, .f32⟩ : BufTy).Contents (Elt F) → (⟨S150000, .f32⟩ : BufTy).Contents (Elt F) → (⟨S150000, .f32⟩ : BufTy).Contents (Elt F)),
    StableHlo.nullary main_c_17 (constantI S_ 32 0#32),
    StableHlo.unary main_c_17 main_v69 (broadcastInDim S1200000 ![] bcast_S_S1200000 : (⟨S_, .i32⟩ : BufTy).Contents (Elt F) → (⟨S1200000, .i32⟩ : BufTy).Contents (Elt F)),
    StableHlo.binary main_v1 main_v69 main_v70 (cmpi .slt : (⟨S1200000, .i32⟩ : BufTy).Contents (Elt F) → (⟨S1200000, .i32⟩ : BufTy).Contents (Elt F) → (⟨S1200000, .i1⟩ : BufTy).Contents (Elt F)),
    StableHlo.nullary main_c_18 (constantI S_ 32 150000#32),
    StableHlo.unary main_c_18 main_v71 (broadcastInDim S1200000 ![] bcast_S_S1200000 : (⟨S_, .i32⟩ : BufTy).Contents (Elt F) → (⟨S1200000, .i32⟩ : BufTy).Contents (Elt F)),
    StableHlo.binary main_v1 main_v71 main_v72 (addi : (⟨S1200000, .i32⟩ : BufTy).Contents (Elt F) → (⟨S1200000, .i32⟩ : BufTy).Contents (Elt F) → (⟨S1200000, .i32⟩ : BufTy).Contents (Elt F)),
    StableHlo.ternary main_v70 main_v72 main_v1 main_v73 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v73 main_v74 (broadcastInDim S1200000x1 ![0] bcast_S1200000_S1200000x1_0 : (⟨S1200000, .i32⟩ : BufTy).Contents (Elt F) → (⟨S1200000x1, .i32⟩ : BufTy).Contents (Elt F)),
    StableHlo.binary main_v68 main_v74 main_v75 ((fun x i => Host.gather gather_S150000_S1200000x1_S1200000_n_0_n_n_0_1_1 x i) : (⟨S150000, .f32⟩ : BufTy).Contents (Elt F) → (⟨S1200000x1, .i32⟩ : BufTy).Contents (Elt F) → (⟨S1200000, .f32⟩ : BufTy).Contents (Elt F)),
    StableHlo.nullary main_c_19 (constantI S_ 32 0#32),
    StableHlo.unary main_c_19 main_v76 (broadcastInDim S1200000 ![] bcast_S_S1200000 : (⟨S_, .i32⟩ : BufTy).Contents (Elt F) → (⟨S1200000, .i32⟩ : BufTy).Contents (Elt F)),
    StableHlo.binary main_v3 main_v76 main_v77 (cmpi .slt : (⟨S1200000, .i32⟩ : BufTy).Contents (Elt F) → (⟨S1200000, .i32⟩ : BufTy).Contents (Elt F) → (⟨S1200000, .i1⟩ : BufTy).Contents (Elt F)),
    StableHlo.nullary main_c_20 (constantI S_ 32 150000#32),
    StableHlo.unary main_c_20 main_v78 (broadcastInDim S1200000 ![] bcast_S_S1200000 : (⟨S_, .i32⟩ : BufTy).Contents (Elt F) → (⟨S1200000, .i32⟩ : BufTy).Contents (Elt F)),
    StableHlo.binary main_v3 main_v78 main_v79 (addi : (⟨S1200000, .i32⟩ : BufTy).Contents (Elt F) → (⟨S1200000, .i32⟩ : BufTy).Contents (Elt F) → (⟨S1200000, .i32⟩ : BufTy).Contents (Elt F)),
    StableHlo.ternary main_v77 main_v79 main_v3 main_v80 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v80 main_v81 (broadcastInDim S1200000x1 ![0] bcast_S1200000_S1200000x1_0 : (⟨S1200000, .i32⟩ : BufTy).Contents (Elt F) → (⟨S1200000x1, .i32⟩ : BufTy).Contents (Elt F)),
    StableHlo.binary main_v68 main_v81 main_v82 ((fun x i => Host.gather gather_S150000_S1200000x1_S1200000_n_0_n_n_0_1_1 x i) : (⟨S150000, .f32⟩ : BufTy).Contents (Elt F) → (⟨S1200000x1, .i32⟩ : BufTy).Contents (Elt F) → (⟨S1200000, .f32⟩ : BufTy).Contents (Elt F)),
    StableHlo.binary main_v75 main_v82 main_v83 (mulf : (⟨S1200000, .f32⟩ : BufTy).Contents (Elt F) → (⟨S1200000, .f32⟩ : BufTy).Contents (Elt F) → (⟨S1200000, .f32⟩ : BufTy).Contents (Elt F)),
    StableHlo.unary main_v83 main_v84 (broadcastInDim S1200000x1 ![0] bcast_S1200000_S1200000x1_0 : (⟨S1200000, .f32⟩ : BufTy).Contents (Elt F) → (⟨S1200000x1, .f32⟩ : BufTy).Contents (Elt F)),
    StableHlo.nullary main_c_21 (constantI S_ 32 0#32),
    StableHlo.unary main_c_21 main_v85 (broadcastInDim S1200000 ![] bcast_S_S1200000 : (⟨S_, .i32⟩ : BufTy).Contents (Elt F) → (⟨S1200000, .i32⟩ : BufTy).Contents (Elt F)),
    StableHlo.binary main_v1 main_v85 main_v86 (cmpi .slt : (⟨S1200000, .i32⟩ : BufTy).Contents (Elt F) → (⟨S1200000, .i32⟩ : BufTy).Contents (Elt F) → (⟨S1200000, .i1⟩ : BufTy).Contents (Elt F)),
    StableHlo.nullary main_c_22 (constantI S_ 32 150000#32),
    StableHlo.unary main_c_22 main_v87 (broadcastInDim S1200000 ![] bcast_S_S1200000 : (⟨S_, .i32⟩ : BufTy).Contents (Elt F) → (⟨S1200000, .i32⟩ : BufTy).Contents (Elt F)),
    StableHlo.binary main_v1 main_v87 main_v88 (addi : (⟨S1200000, .i32⟩ : BufTy).Contents (Elt F) → (⟨S1200000, .i32⟩ : BufTy).Contents (Elt F) → (⟨S1200000, .i32⟩ : BufTy).Contents (Elt F)),
    StableHlo.ternary main_v86 main_v88 main_v1 main_v89 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v89 main_v90 (broadcastInDim S1200000x1 ![0] bcast_S1200000_S1200000x1_0 : (⟨S1200000, .i32⟩ : BufTy).Contents (Elt F) → (⟨S1200000x1, .i32⟩ : BufTy).Contents (Elt F)),
    StableHlo.binary main_v57 main_v90 main_v91 ((fun x i => Host.gather gather_S150000x64_S1200000x1_S1200000x64_1_0_n_n_0_1_164 x i) : (⟨S150000x64, .f32⟩ : BufTy).Contents (Elt F) → (⟨S1200000x1, .i32⟩ : BufTy).Contents (Elt F) → (⟨S1200000x64, .f32⟩ : BufTy).Contents (Elt F)),
    StableHlo.unary main_v84 main_v92 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v92 main_v91 main_v93 (mulf : (⟨S1200000x64, .f32⟩ : BufTy).Contents (Elt F) → (⟨S1200000x64, .f32⟩ : BufTy).Contents (Elt F) → (⟨S1200000x64, .f32⟩ : BufTy).Contents (Elt F)),
    StableHlo.nullary main_cst_23 (constant S_ .f32 0x00000000#32),
    StableHlo.unary main_cst_23 main_v94 (broadcastInDim S150000x64 ![] bcast_S_S150000x64 : (⟨S_, .f32⟩ : BufTy).Contents (Elt F) → (⟨S150000x64, .f32⟩ : BufTy).Contents (Elt F)),
    StableHlo.unary main_v3 main_v95 (broadcastInDim S1200000x1 ![0] bcast_S1200000_S1200000x1_0 : (⟨S1200000, .i32⟩ : BufTy).Contents (Elt F) → (⟨S1200000x1, .i32⟩ : BufTy).Contents (Elt F)),
    StableHlo.ternary main_v94 main_v95 main_v93 main_v96 ((fun x i u => Host.scatterAdd scatter_S150000x64_S1200000x1_S1200000x64_1_0_0_1 x i u) : (⟨S150000x64, .f32⟩ : BufTy).Contents (Elt F) → (⟨S1200000x1, .i32⟩ : BufTy).Contents (Elt F) → (⟨S1200000x64, .f32⟩ : BufTy).Contents (Elt F) → (⟨S150000x64, .f32⟩ : BufTy).Contents (Elt F)),
    StableHlo.binary main_v18 main_v57 main_v97 (addf : (⟨S150000x64, .f32⟩ : BufTy).Contents (Elt F) → (⟨S150000x64, .f32⟩ : BufTy).Contents (Elt F) → (⟨S150000x64, .f32⟩ : BufTy).Contents (Elt F)),
    StableHlo.binary main_v97 main_v96 main_v98 (addf : (⟨S150000x64, .f32⟩ : BufTy).Contents (Elt F) → (⟨S150000x64, .f32⟩ : BufTy).Contents (Elt F) → (⟨S150000x64, .f32⟩ : BufTy).Contents (Elt F)) ]

theorem ops_split : (ops : List (HloOp τ sig (Elt F))) = opsA1 ++ (opsA2 ++ (opsA3 ++ (opsB ++ opsC))) := rfl

end Lists

/-! ## Each stretch at its result buffers, from any contents -/

theorem A1_row (V : Valuation τ sig (Elt Ideal)) :
    after (opsA1 (F := Ideal)) V (Proc.devRef .tc main_v1) = Cert.Gcn.edgeRow (V (Proc.devRef .tc main_arg0)) := by
  after_results_simp
  rfl

theorem A1_col (V : Valuation τ sig (Elt Ideal)) :
    after (opsA1 (F := Ideal)) V (Proc.devRef .tc main_v3) = Cert.Gcn.edgeCol (V (Proc.devRef .tc main_arg0)) := by
  after_results_simp
  rfl

/-- The typed references of the two inlined functions move contents along `rfl`: the casts are the identity. -/
theorem A1_items (V : Valuation τ sig (Elt Ideal)) :
    after (opsA1 (F := Ideal)) V (Proc.devRef .tc main_v12) = hostItems (V (Proc.devRef .tc main_arg1)) (V (Proc.devRef .tc main_arg3)) (V (Proc.devRef .tc main_arg4)) (V (Proc.devRef .tc main_arg5)) (V (Proc.devRef .tc main_arg6)) := by
  after_results_simp
  simp only [cast_eq]
  rfl

theorem A1_users (V : Valuation τ sig (Elt Ideal)) :
    after (opsA1 (F := Ideal)) V (Proc.devRef .tc main_arg2) = V (Proc.devRef .tc main_arg2) := by
  after_results_simp

theorem A2_stacked (V : Valuation τ sig (Elt Ideal)) :
    after (opsA2 (F := Ideal)) V (Proc.devRef .tc main_v13) = hostStacked (V (Proc.devRef .tc main_arg2)) (V (Proc.devRef .tc main_v12)) := by
  simp only [after_cons, after_nil]
  rw [binary_result]
  rfl

theorem A2_row (V : Valuation τ sig (Elt Ideal)) :
    after (opsA2 (F := Ideal)) V (Proc.devRef .tc main_v1) = V (Proc.devRef .tc main_v1) := by
  after_results_simp

theorem A2_col (V : Valuation τ sig (Elt Ideal)) :
    after (opsA2 (F := Ideal)) V (Proc.devRef .tc main_v3) = V (Proc.devRef .tc main_v3) := by
  after_results_simp

theorem A3_nodes (V : Valuation τ sig (Elt Ideal)) :
    after (opsA3 (F := Ideal)) V (Proc.devRef .tc main_v18) = hostUnit (V (Proc.devRef .tc main_v13)) := by
  after_results_simp
  simp only [cast_eq]
  rfl

theorem A3_row (V : Valuation τ sig (Elt Ideal)) :
    after (opsA3 (F := Ideal)) V (Proc.devRef .tc main_v1) = V (Proc.devRef .tc main_v1) := by
  after_results_simp

theorem A3_col (V : Valuation τ sig (Elt Ideal)) :
    after (opsA3 (F := Ideal)) V (Proc.devRef .tc main_v3) = V (Proc.devRef .tc main_v3) := by
  after_results_simp

/-- The first convolution, of whatever table the stretch is handed. The reference's dimension records and the
    shared tail's have the same literal fields. -/
theorem B_conv (V : Valuation τ sig (Elt Ideal)) :
    after (opsB (F := Ideal)) V (Proc.devRef .tc main_v57) = Cert.Gcn.conv (V (Proc.devRef .tc main_v1)) (V (Proc.devRef .tc main_v3)) (V (Proc.devRef .tc main_v18)) := by
  after_results_simp
  rfl

theorem B_row (V : Valuation τ sig (Elt Ideal)) :
    after (opsB (F := Ideal)) V (Proc.devRef .tc main_v1) = V (Proc.devRef .tc main_v1) := by
  after_results_simp

theorem B_col (V : Valuation τ sig (Elt Ideal)) :
    after (opsB (F := Ideal)) V (Proc.devRef .tc main_v3) = V (Proc.devRef .tc main_v3) := by
  after_results_simp

theorem B_nodes (V : Valuation τ sig (Elt Ideal)) :
    after (opsB (F := Ideal)) V (Proc.devRef .tc main_v18) = V (Proc.devRef .tc main_v18) := by
  after_results_simp

/-- The second convolution and the two sums. -/
theorem C_out (V : Valuation τ sig (Elt Ideal)) :
    after (opsC (F := Ideal)) V (Proc.devRef .tc main_v98)
      = addf (F := Ideal) (addf (F := Ideal) (V (Proc.devRef .tc main_v18)) (V (Proc.devRef .tc main_v57)))
          (Cert.Gcn.conv (V (Proc.devRef .tc main_v1)) (V (Proc.devRef .tc main_v3)) (V (Proc.devRef .tc main_v57))) := by
  after_results_simp
  rfl

/-! ## The result -/

/-- The reference's result is the graph tail of the edge array's two rows and of the reference's node table. -/
theorem result_eq (m : (ℓ : Loc nD τ sig) → Buf (Elt Ideal) ℓ) (c : Dev nD) :
    after (ops (F := Ideal)) (fun b => m (c, b)) (Proc.devRef .tc main_v98)
      = Cert.Gcn.tail (Cert.Gcn.edgeRow (m ((c.tc : Thread nD τ).loc main_arg0))) (Cert.Gcn.edgeCol (m ((c.tc : Thread nD τ).loc main_arg0)))
          (hostNodes (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))) := by
  rw [ops_split, after_append, after_append, after_append, after_append, C_out, B_conv, B_row, B_col, B_nodes,
    A3_nodes, A3_row, A3_col, A2_stacked, A2_row, A2_col, A1_items, A1_users, A1_row, A1_col]
  rfl

end Cert.ReferenceIdeal.RefValue

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.HostRows.lean ====
/-
  The reference's host term for the normalised node table is the node table of the row formulas.

  Each host operation is read at an index: a matrix product at (i, j) is the sum over the contracted axis; a bias
  vector broadcast through a row [1, n] to every row reads the vector at the column; a scalar broadcast reads the
  scalar; the two-piece concatenation is the stacked table; the row sum from the zero word is the sum over the row;
  the kept column broadcast over the lanes reads the column at the row; the square root and the quotient are the
  extended reals' own.
-/
import proofs.«132829_j42932493091126_1_alg».proof.Proof.RefTerm
import proofs.«132829_j42932493091126_1_alg».proof.Proof.RowFormulas
import proofs.«132829_j42932493091126_1_alg».proof.Proof.StackRows
import proofs.«132829_j42932493091126_1_alg».proof.Proof.LibHostMatmulNN
import proofs.«132829_j42932493091126_1_alg».proof.Proof.LibHostKeepdims

noncomputable section

open scoped BigOperators

namespace Cert.Gcn

open Idealize.ShloMosaic Idealize.ShloMosaic.ValueIdx
open Cert.ReferenceIdeal Cert.ReferenceIdeal.RefValue

/-- A bias vector [n] broadcast to the row [1, n] and then over m rows reads, at (p, c), the vector at c. -/
theorem hostBias_apply {m n : ℕ} (b : FVec Ideal ⟨1, ![n]⟩ .f32) (d1 : Fin 1 → Fin 2) (d2 : Fin 2 → Fin 2)
    (h1 : (⟨1, ![n]⟩ : Shape).BroadcastsInDim ⟨2, ![1, n]⟩ d1) (h2 : (⟨2, ![1, n]⟩ : Shape).BroadcastsInDim ⟨2, ![m, n]⟩ d2)
    (e1 : d1 0 = 1) (e2 : d2 1 = 1) (p : Fin m) (c : Fin n) :
    broadcastInDim ⟨2, ![m, n]⟩ d2 h2 (broadcastInDim ⟨2, ![1, n]⟩ d1 h1 b) (ix2 p c) = b (ix1 c) :=
  (broadcastInDim_1b_ab_apply d2 h2 e2 _ p c).trans (broadcastInDim_b_1b_apply d1 h1 e1 b (0 : Fin 1) c)

/-- The hidden layer before the rectifier, at (i, k). -/
theorem hostHidden_apply (a1 : FVec Ideal S50000x4096 .f32) (a3 : FVec Ideal S4096x256 .f32) (a4 : FVec Ideal S256 .f32)
    (i : Fin 50000) (k : Fin 256) :
    hostHidden a1 a3 a4 (ix2 i k) = ∑ l : Fin 4096, a1 (ix2 i l) * a3 (ix2 l k) + a4 (ix1 k) := by
  unfold hostHidden
  refine congrArg₂ (· + ·) ?_ ?_
  · exact Cert.LibHostMatmulNN.hostDot_nn_apply dot_S50000x4096_S4096x256_S50000x256_1_0_0_1_n_n rfl rfl rfl rfl rfl rfl
      none a1 a3 i k
  · exact hostBias_apply a4 _ _ _ _ rfl rfl i k

/-- The host's compare, scale and select at an entry are the leaky rectifier of the entry. -/
theorem hostLeaky_apply (h : FVec Ideal S50000x256 .f32) (idx : S50000x256.Idx) : hostLeaky h idx = leaky (h idx) := by
  unfold hostLeaky leaky
  refine (select_apply _ _ _ idx).trans ?_
  rw [cmpf_apply, mulf_apply, broadcastInDim_scalar_apply, broadcastInDim_scalar_apply]
  rfl

/-- The item rows of the reference are the item rows of the row formula. -/
theorem hostItems_eq (a1 : FVec Ideal S50000x4096 .f32) (a3 : FVec Ideal S4096x256 .f32) (a4 : FVec Ideal S256 .f32)
    (a5 : FVec Ideal S256x64 .f32) (a6 : FVec Ideal S64 .f32) : hostItems a1 a3 a4 a5 a6 = items a1 a3 a4 a5 a6 := by
  funext idx
  obtain ⟨i, j, rfl⟩ : ∃ (i : Fin 50000) (j : Fin 64), idx = ix2 i j := ⟨idx 0, idx 1, eq_ix2 idx⟩
  show hostItems a1 a3 a4 a5 a6 (ix2 i j) = mlpRow a1 a3 (fun k => a4 (ix1 k)) a5 (fun k => a6 (ix1 k)) i j
  unfold hostItems mlpRow
  refine congrArg₂ (· + ·) ?_ ?_
  · refine (Cert.LibHostMatmulNN.hostDot_nn_apply dot_S50000x256_S256x64_S50000x64_1_0_0_1_n_n rfl rfl rfl rfl rfl rfl
      none _ a5 i j).trans ?_
    refine Finset.sum_congr rfl fun k _ => ?_
    refine congrArg₂ (· * ·) ?_ rfl
    exact (hostLeaky_apply _ _).trans (congrArg leaky (hostHidden_apply a1 a3 a4 i k))
  · exact hostBias_apply a6 _ _ _ _ rfl rfl i j

/-- The host's quotient at an index is the extended reals' quotient of the entries. -/
theorem hostDivf_at {s : Shape} (a b : FVec Ideal s .f32) (i : s.Idx) :
    Host.divf (F := Ideal) a b i = Ideal.div (a i) (b i) := rfl

/-- The host's square root at an index is the extended reals' square root of the entry. -/
theorem hostSqrt_at {s : Shape} (a : FVec Ideal s .f32) (i : s.Idx) :
    Host.sqrt (F := Ideal) a i = Ideal.sqrt (a i) := rfl

/-- The reference's normalisation of every row is the unit row formula of every row. -/
theorem hostUnit_eq (z : FVec Ideal S150000x64 .f32) : hostUnit z = unitRows z := by
  funext idx
  obtain ⟨r, j, rfl⟩ : ∃ (r : Fin 150000) (j : Fin 64), idx = ix2 r j := ⟨idx 0, idx 1, eq_ix2 idx⟩
  show hostUnit z (ix2 r j) = unitRow z r j
  unfold hostUnit unitRow
  refine (hostDivf_at _ _ _).trans ?_
  refine congrArg (Ideal.div (z (ix2 r j))) ?_
  refine (broadcastInDim_a1_ab_apply _ _ rfl _ r j).trans ?_
  refine (maximumf_apply _ _ _).trans ?_
  refine congrArg₂ max ?_ ?_
  · refine (hostSqrt_at _ _).trans ?_
    refine congrArg Ideal.sqrt ?_
    refine (broadcastInDim_a_a1_apply _ _ rfl _ r (0 : Fin 1)).trans ?_
    refine (hostReduceAdd_rows_apply _ _ _ (by decide) _ r).trans ?_
    -- the sum starts from the zero word, which is zero
    rw [constant_apply, Ideal.ofBits_zero_f32, zero_add]
    rfl
  · exact (broadcastInDim_scalar_apply _ _ _ _).trans rfl

/-- The reference's normalised node table is the node table of the row formulas. -/
theorem hostNodes_eq (a1 : FVec Ideal S50000x4096 .f32) (a2 : FVec Ideal S100000x64 .f32) (a3 : FVec Ideal S4096x256 .f32)
    (a4 : FVec Ideal S256 .f32) (a5 : FVec Ideal S256x64 .f32) (a6 : FVec Ideal S64 .f32) :
    Cert.ReferenceIdeal.RefValue.hostNodes a1 a2 a3 a4 a5 a6 = Cert.Gcn.nodes a1 a2 a3 a4 a5 a6 := by
  unfold hostNodes nodes hostStacked
  rw [hostItems_eq, concat_rows, hostUnit_eq]

end Cert.Gcn

end
-- ==== Proof.lean ====
/-
  The kernel program and its reference compute one function over the extended reals.

  Both take an edge array, 50000 feature rows, 100000 user rows and the weights of a two-layer perceptron. Both
  map every feature row through the perceptron (a matrix product, a bias, the leaky rectifier, a second product and
  bias), stack the user rows on the results, divide every row by the larger of its Euclidean norm and a floor, and
  apply two graph convolutions to the table, returning the table plus the two convolutions, and the user rows.
  The kernel program does the perceptron and the normalisation block by block in two pipelined regions and the rest
  on the host; the reference does everything on the host. At the extended reals a change of float format is the
  identity, a block product into a zero accumulator is the same finite sum as the host's contraction, and a lane sum
  is the host's row sum; so the normalised node table is the same function of the arguments on both sides, entry by
  entry, and the convolutions, spelt identically in both programs, are applied to equal tables. No step needs
  the inputs finite: no sum is reordered across an infinity and nothing is cancelled.
  The frames of the two kernel programs are the generated ones; the reference's frame is its run with the result
  dropped; the idealization rewrote nothing, so that conjunct is trivial.
-/
import proofs.«132829_j42932493091126_1_alg».proof.Defs
import proofs.«132829_j42932493091126_1_alg».proof.Proof.Gen.Kernel
import proofs.«132829_j42932493091126_1_alg».proof.Proof.Gen.Kernel.Skeleton
import proofs.«132829_j42932493091126_1_alg».proof.Proof.Gen.Kernel.Launch
import proofs.«132829_j42932493091126_1_alg».proof.Proof.Gen.Kernel.Points
import proofs.«132829_j42932493091126_1_alg».proof.Proof.Gen.Kernel.Frame
import proofs.«132829_j42932493091126_1_alg».proof.Proof.Gen.KernelIdeal
import proofs.«132829_j42932493091126_1_alg».proof.Proof.Gen.KernelIdeal.Skeleton
import proofs.«132829_j42932493091126_1_alg».proof.Proof.Gen.KernelIdeal.Launch
import proofs.«132829_j42932493091126_1_alg».proof.Proof.Gen.KernelIdeal.Points
import proofs.«132829_j42932493091126_1_alg».proof.Proof.Gen.KernelIdeal.Frame
import proofs.«132829_j42932493091126_1_alg».proof.Proof.Gen.ReferenceIdeal
import proofs.«132829_j42932493091126_1_alg».proof.Proof.Gen.Pre_finite_inputs
import proofs.«132829_j42932493091126_1_alg».proof.Proof.KernelRun
import proofs.«132829_j42932493091126_1_alg».proof.Proof.KernelValue
import proofs.«132829_j42932493091126_1_alg».proof.Proof.RefRun
import proofs.«132829_j42932493091126_1_alg».proof.Proof.RefRead
import proofs.«132829_j42932493091126_1_alg».proof.Proof.HostRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result's value dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end with the graph tail of the normalised node table of the (agreeing) arguments, and the user rows. -/
theorem algebraic : Cert.algebraic_KernelIdeal_ReferenceIdeal := by
  intro m ρ m' ρ' _ hagree
  refine ⟨fun c => Cert.Gcn.tail (Cert.Gcn.edgeRow (m ((c.tc : Thread Cert.KernelIdeal.nD Cert.KernelIdeal.τ).loc Cert.KernelIdeal.main_arg0)))
      (Cert.Gcn.edgeCol (m ((c.tc : Thread Cert.KernelIdeal.nD Cert.KernelIdeal.τ).loc Cert.KernelIdeal.main_arg0)))
      (Cert.Gcn.nodes (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))),
    fun c => m ((c.tc : Thread Cert.KernelIdeal.nD Cert.KernelIdeal.τ).loc Cert.KernelIdeal.main_arg2), ?_, ?_⟩
  · exact (θ_run Cert.KernelIdeal.defs _ _).mono
      (fun r h c => ⟨(h c).1.trans (Cert.KernelIdeal.NodeValue.result_value m ρ c), (h c).2.2.2.1, (h c).2⟩)
      (Cert.KernelIdeal.NodeValue.run_named m ρ)
  · refine (θ_run Cert.ReferenceIdeal.defs _ _).mono (fun r h c => ⟨?_, ?_, (h c).2⟩)
      (Cert.ReferenceIdeal.RefValue.run m' ρ')
    · rw [(h c).1, Cert.ReferenceIdeal.RefValue.result_eq m' c, Cert.Gcn.hostNodes_eq,
        (hagree c).1, (hagree c).2.1, (hagree c).2.2.1, (hagree c).2.2.2.1, (hagree c).2.2.2.2.1,
        (hagree c).2.2.2.2.2.1, (hagree c).2.2.2.2.2.2]
    · exact (h c).2.2.2.1.trans (hagree c).2.2.1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
